-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S1 : Shape := ⟨1, ![1]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S4x128x128 .f32) (main_arg6 : FVec F S128 .f32) (main_arg7 : FVec F S1 .f32) (main_arg8 : FVec F S128x1 .f32) (main_arg9 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S4x128x128 .f32) (main_arg3 : FVec F S128 .f32) (main_arg4 : FVec F S1 .f32) (main_arg5 : FVec F S4x128x128 .f32) (main_arg6 : FVec F S128 .f32) (main_arg7 : FVec F S1 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S1 : Shape := ⟨1, ![1]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S10x1x128 : Shape := ⟨3, ![10, 1, 128]⟩
abbrev S1x1x128 : Shape := ⟨3, ![1, 1, 128]⟩

abbrev nBuf : Space → Nat
  | .hbm => 152
  | .vmem => 26
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S1, .f32⟩
  | 5 => ⟨S4x128x128, .f32⟩
  | 6 => ⟨S128, .f32⟩
  | 7 => ⟨S1, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S50000x1, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000x1, .f32⟩
  | 67 => ⟨S50000x128, .f32⟩
  | 68 => ⟨S50000x128, .f32⟩
  | 69 => ⟨S50000x1, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x1, .f32⟩
  | 86 => ⟨S50000x128, .f32⟩
  | 87 => ⟨S50000x128, .f32⟩
  | 88 => ⟨S50000x128, .f32⟩
  | 89 => ⟨S50000x1, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000x1, .f32⟩
  | 106 => ⟨S50000x128, .f32⟩
  | 107 => ⟨S50000x128, .f32⟩
  | 108 => ⟨S50000x1, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x1, .f32⟩
  | 16 => ⟨S50000x128, .f32⟩
  | 17 => ⟨S50000x128, .f32⟩
  | 18 => ⟨S10x1x128, .f32⟩
  | 19 => ⟨S_, .f32⟩
  | 20 => ⟨S1x128, .f32⟩
  | 21 => ⟨S1x1, .f32⟩
  | 22 => ⟨S1x1, .f32⟩
  | 23 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S4x128x128, .f32⟩
  | .local _ .vmem, ⟨9, _⟩ => ⟨S128, .f32⟩
  | .local _ .vmem, ⟨10, _⟩ => ⟨S1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S4x128x128, .f32⟩
  | .local _ .vmem, ⟨22, _⟩ => ⟨S128, .f32⟩
  | .local _ .vmem, ⟨23, _⟩ => ⟨S1, .f32⟩
  | .local _ .vmem, ⟨24, _⟩ => ⟨S1x1x128, .f32⟩
  | .local _ .vmem, ⟨25, _⟩ => ⟨S1x1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_18 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S5000x128_S5000x128 : S5000x128.ShapeCasts S5000x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S1_S1_0 : ∀ a, (![0] : Fin 1 → Nat) a + S1.size a ≤ S1.size a
  h_S1 : 0 < S1.numel
  shapeCasts_S1_S1x1 : S1.ShapeCasts S1x1
  broadcasts_S1x1_S5000x128 : S1x1.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S1x128_d0 : S10x1x128.ReducesTo [0] S1x128
  h_S_ : 0 < S_.numel
  bcast_S1_S1x1_1 : S1.BroadcastsInDim S1x1 (![1] : Fin 1 → Fin S1x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x128.size a ≤ S4x128x128.size a
  hwx1_4 : ∀ i : grid1.Coords, EltTy.bits .f32 = 32 ∨ (Rect.block (s := S4x128x128) S4x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S10x1x128.size a
  hwx1_7 : ∀ i : grid1.Coords, EltTy.bits .f32 = 32 ∨ (Rect.block (s := S10x1x128) S1x1x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v62) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v110) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v111) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4x128x128 : Shape := ⟨3, ![4, 128, 128]⟩
abbrev S128 : Shape := ⟨1, ![128]⟩
abbrev S1 : Shape := ⟨1, ![1]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S4x128x128, .f32⟩
  | 3 => ⟨S128, .f32⟩
  | 4 => ⟨S1, .f32⟩
  | 5 => ⟨S4x128x128, .f32⟩
  | 6 => ⟨S128, .f32⟩
  | 7 => ⟨S1, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S1x128x128, .f32⟩
  | 55 => ⟨S128x128, .f32⟩
  | 56 => ⟨S50000x128, .f32⟩
  | 57 => ⟨S800000x1, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S1x128x128, .f32⟩
  | 74 => ⟨S128x128, .f32⟩
  | 75 => ⟨S50000x128, .f32⟩
  | 76 => ⟨S50000x128, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S1x128x128, .f32⟩
  | 94 => ⟨S128x128, .f32⟩
  | 95 => ⟨S50000x128, .f32⟩
  | 96 => ⟨S50000x128, .f32⟩
  | 97 => ⟨S800000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x128x128, .f32⟩
  | 114 => ⟨S128x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .i1⟩
  | 123 => ⟨S1x1, .f32⟩
  | 124 => ⟨S50000x128, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S800000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S1x128x128, .f32⟩
  | 19 => ⟨S128x128, .f32⟩
  | 20 => ⟨S50000x128, .f32⟩
  | 21 => ⟨S50000x128, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S1x128x128, .f32⟩
  | 39 => ⟨S128x128, .f32⟩
  | 40 => ⟨S50000x128, .f32⟩
  | 41 => ⟨S50000x128, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1x128x128, .f32⟩
  | 59 => ⟨S128x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S1x1, .f32⟩
  | 69 => ⟨S50000x128, .f32⟩
  | 70 => ⟨S50000x128, .f32⟩
  | 71 => ⟨S50000x128, .f32⟩
  | 72 => ⟨S_, .f32⟩
  | 73 => ⟨S128, .f32⟩
  | 74 => ⟨S1x128, .f32⟩
  | 75 => ⟨S1x1, .f32⟩
  | 76 => ⟨S1x1, .f32⟩
  | 77 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_17 : Ref sig .tc := ⟨.hbm, 131, rfl⟩
abbrev main_v100 : Ref sig .tc := ⟨.hbm, 132, rfl⟩
abbrev main_v101 : Ref sig .tc := ⟨.hbm, 133, rfl⟩
abbrev main_c_18 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_20 : Ref sig .tc := ⟨.hbm, 151, rfl⟩
abbrev main_v117 : Ref sig .tc := ⟨.hbm, 152, rfl⟩
abbrev main_v118 : Ref sig .tc := ⟨.hbm, 153, rfl⟩
abbrev main_c_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_22 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_c_23 : Ref sig .tc := ⟨.hbm, 171, rfl⟩
abbrev main_v134 : Ref sig .tc := ⟨.hbm, 172, rfl⟩
abbrev main_v135 : Ref sig .tc := ⟨.hbm, 173, rfl⟩
abbrev main_c_24 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_25 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_26 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_27 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  reducesTo_S50000x128_S128_d0 : S50000x128.ReducesTo [0] S128
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x1_S1x1_1_0_0_1_n_n_wf : DotDims.WF S1x128 S128x1 S1x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.Spec.lean ====
/-
  The two programs' shared vocabulary: the graph convolution's pieces as whole-array functions of the argument arrays.

  Both programs compute, from the edge list `e : [2, 800000]` (row 0 the targets, row 1 the sources), the degree
  normalizer `dinv n = [deg n > 0] · rsqrt (max (deg n) 1)`, three propagation hops `h ↦ Â h` of the node features, a
  layer `prelu (Σₖ hₖ · W[k] + b)` over the four hop tensors, a second such layer, the sum over all nodes, and a
  final product with `Wout` plus `bout`.  They differ in how a hop is arranged: the reference scales every gathered
  source row by `dinv[row]·dinv[col]` on the edge and then adds the edges of a target (`hopR`); the kernel scales the
  node features by `dinv` before the gather and the accumulated sum by `dinv` after it (`hopK`).  They also differ in
  where the layers run (on the host, or block by block in a pipelined region).
-/
import proofs.«177928_j41618233098577_2_alg».proof.Proof.Gen.KernelIdeal
import proofs.«177928_j41618233098577_2_alg».proof.Proof.Gen.ReferenceIdeal

noncomputable section

namespace Cert.Spec

open Idealize.ShloMosaic Cert.ReferenceIdeal Cert.ReferenceIdeal.Gen

variable {F : FTy → Type} [FloatOps F]

/-- The edge targets `e[0, :]`. -/
def rowOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge sources `e[1, :]`. -/
def colOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- An index vector as the one-column array a gather or scatter reads. -/
def idxCol (v : (⟨S800000, .i32⟩ : BufTy).Contents (Elt F)) : (⟨S800000x1, .i32⟩ : BufTy).Contents (Elt F) :=
  broadcastInDim S800000x1 ![0] bcast_S800000_S800000x1_0 v

/-- A negative index counted from the end: `v < 0 ? v + 50000 : v`. -/
def wrapIdx (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- The number of edges into each node, as a float. -/
def degOf (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (idxCol (rowOf e))
    (broadcastInDim S800000 ![] bcast_S_S800000 (constant S_ .f32 0x3F800000#32))

/-- `dinv n = rsqrt (max (deg n) 1)` where `deg n > 0`, else `0`. -/
def dinvOf (e : (⟨S2x800000, .i32⟩ : BufTy).Contents (Elt F)) : (⟨S50000, .f32⟩ : BufTy).Contents (Elt F) :=
  select (cmpf .ogt (degOf e) (broadcastInDim S50000 ![] bcast_S_S50000 (constant S_ .f32 0x00000000#32)))
    (Host.rsqrt (maximumf (degOf e) (broadcastInDim S50000 ![] bcast_S_S50000 (constant S_ .f32 0x3F800000#32))))
    (broadcastInDim S50000 ![] bcast_S_S50000 (id (constant S_ .f32 0x00000000#32)))

/-- The reference's edge weight `dinv[row] · dinv[col]`. -/
def normOf (e : (⟨S2x800000, .i32⟩ : BufTy).Contents (Elt F)) : (⟨S800000, .f32⟩ : BufTy).Contents (Elt F) :=
  mulf (Host.gather gather_S50000_S800000x1_S800000_n_0_n_n_0_1_1 (dinvOf e) (idxCol (wrapIdx (rowOf e))))
    (Host.gather gather_S50000_S800000x1_S800000_n_0_n_n_0_1_1 (dinvOf e) (idxCol (wrapIdx (colOf e))))

/-- The reference's hop: every edge's source row, scaled by the edge weight, added into its target row. -/
def hopR (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (idxCol (rowOf e))
    (mulf (broadcastInDim S800000x128 ![0, 1] bcast_S800000x1_S800000x128_0_1
        (broadcastInDim S800000x1 ![0] bcast_S800000_S800000x1_0 (normOf e)))
      (Host.gather gather_S50000x128_S800000x1_S800000x128_1_0_n_n_0_1_1128 h (idxCol (wrapIdx (colOf e)))))

/-- `dinv` repeated along the feature axis. -/
def dinvB (e : (⟨S2x800000, .i32⟩ : BufTy).Contents (Elt F)) : (⟨S50000x128, .f32⟩ : BufTy).Contents (Elt F) :=
  broadcastInDim S50000x128 ![0, 1] Cert.KernelIdeal.Facts₀.bcast_S50000x1_S50000x128_0_1
    (broadcastInDim Cert.KernelIdeal.S50000x1 ![0] Cert.KernelIdeal.Facts₀.bcast_S50000_S50000x1_0 (dinvOf e))

/-- The kernel's hop: the node rows scaled by `dinv`, every edge's source row added into its target row, the sums
    scaled by `dinv` again. -/
def hopK (e : (⟨S2x800000, .i32⟩ : BufTy).Contents (Elt F)) (h : (⟨S50000x128, .f32⟩ : BufTy).Contents (Elt F)) :
    (⟨S50000x128, .f32⟩ : BufTy).Contents (Elt F) :=
  mulf (dinvB e)
    (Host.scatterAdd scatter_S50000x128_S800000x1_S800000x128_1_0_0_1
      (broadcastInDim S50000x128 ![] bcast_S_S50000x128 (constant S_ .f32 0x00000000#32)) (idxCol (rowOf e))
      (Host.gather gather_S50000x128_S800000x1_S800000x128_1_0_n_n_0_1_1128 (mulf (dinvB e) h) (idxCol (wrapIdx (colOf e)))))

/-- The four weight matrices of a layer. -/
def w0 (W : (⟨S4x128x128, .f32⟩ : BufTy).Contents (Elt F)) : (⟨S128x128, .f32⟩ : BufTy).Contents (Elt F) :=
  shapeCast _ (extractStridedSlice S1x128x128 ![0, 0, 0] W slices_S4x128x128_S1x128x128_0_0_0) shapeCasts_S1x128x128_S128x128
def w1 (W : (⟨S4x128x128, .f32⟩ : BufTy).Contents (Elt F)) : (⟨S128x128, .f32⟩ : BufTy).Contents (Elt F) :=
  shapeCast _ (extractStridedSlice S1x128x128 ![1, 0, 0] W slices_S4x128x128_S1x128x128_1_0_0) shapeCasts_S1x128x128_S128x128
def w2 (W : (⟨S4x128x128, .f32⟩ : BufTy).Contents (Elt F)) : (⟨S128x128, .f32⟩ : BufTy).Contents (Elt F) :=
  shapeCast _ (extractStridedSlice S1x128x128 ![2, 0, 0] W slices_S4x128x128_S1x128x128_2_0_0) shapeCasts_S1x128x128_S128x128
def w3 (W : (⟨S4x128x128, .f32⟩ : BufTy).Contents (Elt F)) : (⟨S128x128, .f32⟩ : BufTy).Contents (Elt F) :=
  shapeCast _ (extractStridedSlice S1x128x128 ![3, 0, 0] W slices_S4x128x128_S1x128x128_3_0_0) shapeCasts_S1x128x128_S128x128

/-- Node features times one weight matrix. -/
def dotW (h : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none h w

/-- A layer before its activation: `((h0·W0 + h1·W1) + h2·W2) + h3·W3 + b`. -/
def accT (h0 h1 h2 h3 : (⟨S50000x128, .f32⟩ : BufTy).Contents (Elt F)) (W : (⟨S4x128x128, .f32⟩ : BufTy).Contents (Elt F))
    (b : (⟨S128, .f32⟩ : BufTy).Contents (Elt F)) : (⟨S50000x128, .f32⟩ : BufTy).Contents (Elt F) :=
  addf (addf (addf (addf (dotW h0 (w0 W)) (dotW h1 (w1 W))) (dotW h2 (w2 W))) (dotW h3 (w3 W)))
    (broadcastInDim S50000x128 ![0, 1] bcast_S1x128_S50000x128_0_1 (broadcastInDim S1x128 ![1] bcast_S128_S1x128_1 b))

/-- A layer: `prelu` with slope `a` of `accT`. -/
def layerT (h0 h1 h2 h3 : (⟨S50000x128, .f32⟩ : BufTy).Contents (Elt F)) (W : (⟨S4x128x128, .f32⟩ : BufTy).Contents (Elt F))
    (b : (⟨S128, .f32⟩ : BufTy).Contents (Elt F)) (a : (⟨S1, .f32⟩ : BufTy).Contents (Elt F)) :
    (⟨S50000x128, .f32⟩ : BufTy).Contents (Elt F) :=
  select (cmpf .oge (accT h0 h1 h2 h3 W b) (broadcastInDim S50000x128 ![] bcast_S_S50000x128 (constant S_ .f32 0x00000000#32)))
    (accT h0 h1 h2 h3 W b)
    (mulf (broadcastInDim S50000x128 ![0, 1] bcast_S1x1_S50000x128_0_1 (broadcastInDim S1x1 ![1] bcast_S1_S1x1_1 a)) (accT h0 h1 h2 h3 W b))

/-- A layer over the reference's hops of `x`. -/
def convR (e : (⟨S2x800000, .i32⟩ : BufTy).Contents (Elt F)) (x : (⟨S50000x128, .f32⟩ : BufTy).Contents (Elt F))
    (W : (⟨S4x128x128, .f32⟩ : BufTy).Contents (Elt F)) (b : (⟨S128, .f32⟩ : BufTy).Contents (Elt F))
    (a : (⟨S1, .f32⟩ : BufTy).Contents (Elt F)) : (⟨S50000x128, .f32⟩ : BufTy).Contents (Elt F) :=
  layerT x (hopR e x) (hopR e (hopR e x)) (hopR e (hopR e (hopR e x))) W b a

/-- A layer over the kernel's hops of `x`. -/
def convK (e : (⟨S2x800000, .i32⟩ : BufTy).Contents (Elt F)) (x : (⟨S50000x128, .f32⟩ : BufTy).Contents (Elt F))
    (W : (⟨S4x128x128, .f32⟩ : BufTy).Contents (Elt F)) (b : (⟨S128, .f32⟩ : BufTy).Contents (Elt F))
    (a : (⟨S1, .f32⟩ : BufTy).Contents (Elt F)) : (⟨S50000x128, .f32⟩ : BufTy).Contents (Elt F) :=
  layerT x (hopK e x) (hopK e (hopK e x)) (hopK e (hopK e (hopK e x))) W b a

/-- The sum over all nodes, as a one-row array. -/
def poolT (act : (⟨S50000x128, .f32⟩ : BufTy).Contents (Elt F)) : (⟨S1x128, .f32⟩ : BufTy).Contents (Elt F) :=
  broadcastInDim S1x128 ![1] bcast_S128_S1x128_1
    (Host.reduceAdd act (constant S_ .f32 0x00000000#32) reducesTo_S50000x128_S128_d0 h_S_)

/-- The last two operations: the pooled row times `Wout`, plus `bout`. -/
def tailT (g : (⟨S1x128, .f32⟩ : BufTy).Contents (Elt F)) (Wout : (⟨S128x1, .f32⟩ : BufTy).Contents (Elt F))
    (bout : (⟨S1, .f32⟩ : BufTy).Contents (Elt F)) : (⟨S1x1, .f32⟩ : BufTy).Contents (Elt F) :=
  addf (Host.dotGeneral dot_S1x128_S128x1_S1x1_1_0_0_1_n_n none g Wout) (broadcastInDim S1x1 ![1] bcast_S1_S1x1_1 bout)

/-- The whole network as the reference arranges it. -/
def netR (x : (⟨S50000x128, .f32⟩ : BufTy).Contents (Elt F)) (e : (⟨S2x800000, .i32⟩ : BufTy).Contents (Elt F))
    (W1 : (⟨S4x128x128, .f32⟩ : BufTy).Contents (Elt F)) (b1 : (⟨S128, .f32⟩ : BufTy).Contents (Elt F)) (a1 : (⟨S1, .f32⟩ : BufTy).Contents (Elt F))
    (W2 : (⟨S4x128x128, .f32⟩ : BufTy).Contents (Elt F)) (b2 : (⟨S128, .f32⟩ : BufTy).Contents (Elt F)) (a2 : (⟨S1, .f32⟩ : BufTy).Contents (Elt F))
    (Wout : (⟨S128x1, .f32⟩ : BufTy).Contents (Elt F)) (bout : (⟨S1, .f32⟩ : BufTy).Contents (Elt F)) :
    (⟨S1x1, .f32⟩ : BufTy).Contents (Elt F) :=
  tailT (poolT (convR e (convR e x W1 b1 a1) W2 b2 a2)) Wout bout

end Cert.Spec

end
-- ==== Proof.KernelHost.lean ====
/-
  The kernel program's stretches of host operations, read as whole-array functions of the contents the stretch
  starts from: which buffers a stretch writes (every other buffer keeps its contents), and the buffers it leaves
  holding the degree normalizer, the edge targets and sources, the three propagation hops, and the final product.
-/
import proofs.«177928_j41618233098577_2_alg».proof.Proof.Gen.KernelIdeal.Launch
import proofs.«177928_j41618233098577_2_alg».proof.Proof.Spec
import Idealize.ShloMosaic.Lib.StableHlo.Run
import Idealize.ShloMosaic.PureOps.Ideal

noncomputable section

namespace Cert.KernelHost

open Idealize.ShloMosaic Idealize.ShloMosaic.StableHlo Idealize.ShloMosaic.TcCoe Cert.KernelIdeal Cert.KernelIdeal.Gen Cert.Spec

variable (V : Valuation τ sig (Elt Ideal))

/-- The buffers the stretch `hostOps0` writes, in order. -/
def written0 : List (Ref sig .tc) :=
  [main_v0, main_v1, main_v2, main_v3, main_cst, main_v4, main_cst_0, main_v5, main_v6, main_v7, main_cst_1, main_v8, main_v9, main_cst_2, main_v10, main_v11, main_v12, main_cst_3]

/-- A buffer the stretch does not write keeps its contents. -/
theorem keep0 (r : Ref sig .tc) (hr : r ∉ written0) :
    after (hostOps0 (F := Ideal)) V (Proc.devRef .tc r) = V (Proc.devRef .tc r) :=
  after_of_writes_sub _ V (by
    simp only [hostOps0, List.Forall, nullary_writes, unary_writes, binary_writes, ternary_writes, reshape_writes,
      Finset.singleton_subset_iff, List.mem_toFinset]
    repeat' apply And.intro
    all_goals exact List.mem_map_of_mem (f := Proc.devRef (τ := τ) .tc) (by decide)) hr

/-- The buffers the stretch `hostOps0_1` writes, in order. -/
def written0_1 : List (Ref sig .tc) :=
  [main_call0_v0, main_call0_v1, main_v13]

/-- A buffer the stretch does not write keeps its contents. -/
theorem keep0_1 (r : Ref sig .tc) (hr : r ∉ written0_1) :
    after (hostOps0_1 (F := Ideal)) V (Proc.devRef .tc r) = V (Proc.devRef .tc r) :=
  after_of_writes_sub _ V (by
    simp only [hostOps0_1, List.Forall, nullary_writes, unary_writes, binary_writes, ternary_writes, reshape_writes,
      Finset.singleton_subset_iff, List.mem_toFinset]
    repeat' apply And.intro
    all_goals exact List.mem_map_of_mem (f := Proc.devRef (τ := τ) .tc) (by decide)) hr

/-- The buffers the stretch `hostOps0_2` writes, in order. -/
def written0_2 : List (Ref sig .tc) :=
  [main_v14, main_v15, main_v16, main_c, main_v17, main_v18, main_c_4, main_v19, main_v20, main_v21, main_v22, main_v23, main_cst_5, main_v24, main_v25, main_v26, main_v27, main_v28, main_v29, main_v30, main_v31, main_v32, main_c_6, main_v33, main_v34, main_c_7, main_v35, main_v36, main_v37, main_v38, main_v39, main_cst_8, main_v40, main_v41, main_v42, main_v43, main_v44, main_v45, main_v46, main_v47, main_v48, main_c_9, main_v49, main_v50, main_c_10, main_v51, main_v52, main_v53, main_v54, main_v55, main_cst_11, main_v56, main_v57, main_v58, main_v59, main_v60, main_v61]

/-- A buffer the stretch does not write keeps its contents. -/
theorem keep0_2 (r : Ref sig .tc) (hr : r ∉ written0_2) :
    after (hostOps0_2 (F := Ideal)) V (Proc.devRef .tc r) = V (Proc.devRef .tc r) :=
  after_of_writes_sub _ V (by
    simp only [hostOps0_2, List.Forall, nullary_writes, unary_writes, binary_writes, ternary_writes, reshape_writes,
      Finset.singleton_subset_iff, List.mem_toFinset]
    repeat' apply And.intro
    all_goals exact List.mem_map_of_mem (f := Proc.devRef (τ := τ) .tc) (by decide)) hr

/-- The buffers the stretch `hostOps1` writes, in order. -/
def written1 : List (Ref sig .tc) :=
  [main_v63, main_v64, main_v65, main_c_12, main_v66, main_v67, main_c_13, main_v68, main_v69, main_v70, main_v71, main_v72, main_cst_14, main_v73, main_v74, main_v75, main_v76, main_v77, main_v78, main_v79, main_v80, main_v81, main_c_15, main_v82, main_v83, main_c_16, main_v84, main_v85, main_v86, main_v87, main_v88, main_cst_17, main_v89, main_v90, main_v91, main_v92, main_v93, main_v94, main_v95, main_v96, main_v97, main_c_18, main_v98, main_v99, main_c_19, main_v100, main_v101, main_v102, main_v103, main_v104, main_cst_20, main_v105, main_v106, main_v107, main_v108, main_v109, main_v110]

/-- A buffer the stretch does not write keeps its contents. -/
theorem keep1 (r : Ref sig .tc) (hr : r ∉ written1) :
    after (hostOps1 (F := Ideal)) V (Proc.devRef .tc r) = V (Proc.devRef .tc r) :=
  after_of_writes_sub _ V (by
    simp only [hostOps1, List.Forall, nullary_writes, unary_writes, binary_writes, ternary_writes, reshape_writes,
      Finset.singleton_subset_iff, List.mem_toFinset]
    repeat' apply And.intro
    all_goals exact List.mem_map_of_mem (f := Proc.devRef (τ := τ) .tc) (by decide)) hr

/-- The buffers the stretch `hostOps2` writes, in order. -/
def written2 : List (Ref sig .tc) :=
  [main_cst_21, main_v112, main_v113, main_v114, main_v115]

/-- A buffer the stretch does not write keeps its contents. -/
theorem keep2 (r : Ref sig .tc) (hr : r ∉ written2) :
    after (hostOps2 (F := Ideal)) V (Proc.devRef .tc r) = V (Proc.devRef .tc r) :=
  after_of_writes_sub _ V (by
    simp only [hostOps2, List.Forall, nullary_writes, unary_writes, binary_writes, ternary_writes, reshape_writes,
      Finset.singleton_subset_iff, List.mem_toFinset]
    repeat' apply And.intro
    all_goals exact List.mem_map_of_mem (f := Proc.devRef (τ := τ) .tc) (by decide)) hr

/-- The outlined select over arbitrary contents. -/
theorem where_apply (W : Valuation τ sig (Elt Ideal)) :
    after (hostOps0_1 (F := Ideal)) W (Proc.devRef .tc main_v13)
      = select (W (Proc.devRef .tc main_v9)) (W (Proc.devRef .tc main_v12))
          (broadcastInDim S50000 ![] bcast_S_S50000 (id (W (Proc.devRef .tc main_cst_3)))) := by
  after_results_simp
  rfl

/-- The comparison of the degree with zero, after the first stretch. -/
theorem v9_apply :
    after (hostOps0 (F := Ideal)) V (Proc.devRef .tc main_v9)
      = cmpf .ogt (degOf (F := Ideal) (V (Proc.devRef .tc main_arg1)))
          (broadcastInDim S50000 ![] bcast_S_S50000 (constant (F := Ideal) S_ .f32 0x00000000#32)) := by
  after_results_simp
  rfl

/-- The inverse square root of the clamped degree, after the first stretch. -/
theorem v12_apply :
    after (hostOps0 (F := Ideal)) V (Proc.devRef .tc main_v12)
      = Host.rsqrt (maximumf (degOf (F := Ideal) (V (Proc.devRef .tc main_arg1)))
          (broadcastInDim S50000 ![] bcast_S_S50000 (constant (F := Ideal) S_ .f32 0x3F800000#32))) := by
  after_results_simp
  rfl

/-- The zero the outlined select falls back to, after the first stretch. -/
theorem cst3_apply :
    after (hostOps0 (F := Ideal)) V (Proc.devRef .tc main_cst_3) = constant (F := Ideal) S_ .f32 0x00000000#32 := by
  after_results_simp

/-- After the first two stretches: the degree normalizer, the edge targets and the edge sources. -/
theorem stretch0 :
    after (hostOps0_1 (F := Ideal)) (after (hostOps0 (F := Ideal)) V) (Proc.devRef .tc main_v13) = dinvOf (F := Ideal) (V (Proc.devRef .tc main_arg1))
    ∧ after (hostOps0_1 (F := Ideal)) (after (hostOps0 (F := Ideal)) V) (Proc.devRef .tc main_v1) = rowOf (F := Ideal) (V (Proc.devRef .tc main_arg1))
    ∧ after (hostOps0_1 (F := Ideal)) (after (hostOps0 (F := Ideal)) V) (Proc.devRef .tc main_v3) = colOf (F := Ideal) (V (Proc.devRef .tc main_arg1)) := by
  refine ⟨?_, ?_, ?_⟩
  · rw [where_apply, v9_apply, v12_apply, cst3_apply]
    rfl
  · after_results_simp
    rfl
  · after_results_simp
    rfl

set_option maxHeartbeats 4000000 in
/-- The stretch before the first region, from contents holding the degree normalizer and the edge targets and sources: the three propagation hops of the node features. -/
theorem stretchHops0 (e : (⟨Cert.ReferenceIdeal.S2x800000, .i32⟩ : BufTy).Contents (Elt Ideal))
    (h13 : V (Proc.devRef .tc main_v13) = dinvOf (F := Ideal) e) (h1 : V (Proc.devRef .tc main_v1) = rowOf (F := Ideal) e)
    (h3 : V (Proc.devRef .tc main_v3) = colOf (F := Ideal) e) :
    after (hostOps0_2 (F := Ideal)) V (Proc.devRef .tc main_v29) = hopK (F := Ideal) e (V (Proc.devRef .tc main_arg0))
    ∧ after (hostOps0_2 (F := Ideal)) V (Proc.devRef .tc main_v45) = hopK (F := Ideal) e (hopK (F := Ideal) e (V (Proc.devRef .tc main_arg0)))
    ∧ after (hostOps0_2 (F := Ideal)) V (Proc.devRef .tc main_v61)
        = hopK (F := Ideal) e (hopK (F := Ideal) e (hopK (F := Ideal) e (V (Proc.devRef .tc main_arg0)))) := by
  refine ⟨?_, ?_, ?_⟩
  · after_results_simp
    rw [h13, h1, h3]
    unfold hopK dinvB idxCol wrapIdx
    rfl
  · after_results_simp
    rw [h13, h1, h3]
    unfold hopK dinvB idxCol wrapIdx
    rfl
  · after_results_simp
    rw [h13, h1, h3]
    unfold hopK dinvB idxCol wrapIdx
    rfl

set_option maxHeartbeats 4000000 in
/-- The stretch between the two regions, likewise: the three propagation hops of the first layer's output. -/
theorem stretchHops1 (e : (⟨Cert.ReferenceIdeal.S2x800000, .i32⟩ : BufTy).Contents (Elt Ideal))
    (h13 : V (Proc.devRef .tc main_v13) = dinvOf (F := Ideal) e) (h1 : V (Proc.devRef .tc main_v1) = rowOf (F := Ideal) e)
    (h3 : V (Proc.devRef .tc main_v3) = colOf (F := Ideal) e) :
    after (hostOps1 (F := Ideal)) V (Proc.devRef .tc main_v78) = hopK (F := Ideal) e (V (Proc.devRef .tc main_v62))
    ∧ after (hostOps1 (F := Ideal)) V (Proc.devRef .tc main_v94) = hopK (F := Ideal) e (hopK (F := Ideal) e (V (Proc.devRef .tc main_v62)))
    ∧ after (hostOps1 (F := Ideal)) V (Proc.devRef .tc main_v110)
        = hopK (F := Ideal) e (hopK (F := Ideal) e (hopK (F := Ideal) e (V (Proc.devRef .tc main_v62)))) := by
  refine ⟨?_, ?_, ?_⟩
  · after_results_simp
    rw [h13, h1, h3]
    unfold hopK dinvB idxCol wrapIdx
    rfl
  · after_results_simp
    rw [h13, h1, h3]
    unfold hopK dinvB idxCol wrapIdx
    rfl
  · after_results_simp
    rw [h13, h1, h3]
    unfold hopK dinvB idxCol wrapIdx
    rfl

/-- After the last stretch: the final product of the summed partial rows with the output weights, plus the bias. -/
theorem stretchTail :
    after (hostOps2 (F := Ideal)) V (Proc.devRef .tc main_v115)
      = tailT (F := Ideal) (Host.reduceAdd (F := Ideal) (V (Proc.devRef .tc main_v111)) (constant (F := Ideal) S_ .f32 0x00000000#32)
          Facts₀.reducesTo_S10x1x128_S1x128_d0 Facts₀.h_S_) (V (Proc.devRef .tc main_arg8)) (V (Proc.devRef .tc main_arg9)) := by
  after_results_simp
  rfl

end Cert.KernelHost

end
-- ==== Proof.Act.lean ====
/-
  The activation of one accumulated entry, as a function on the extended reals: `prelu a z = z` where `z ≥ 0`,
  else `a · z`, written with the comparison and the select the two programs use.
-/
import Idealize.ShloMosaic.PureOps.Ideal
import Idealize.ShloMosaic.Lib.ValueIdx

noncomputable section

namespace Cert.Act

open Idealize.ShloMosaic

/-- `prelu` with slope `a` at one entry `z`. -/
def preluS (a z : Ideal .f32) : Ideal .f32 :=
  Scalar.select (FloatOps.cmpf .oge z (Ideal.ofBits .f32 0x00000000#32)) z (a * z)

/-- One entry of a layer before its activation: the four hop products' entries added left to right, plus the bias. -/
def accS (s0 s1 s2 s3 b : Ideal .f32) : Ideal .f32 := (((s0 + s1) + s2) + s3) + b

end Cert.Act

end
-- ==== Proof.KernelLayer.lean ====
/-
  The two kernel bodies read at an index.  At a grid point the first body holds four blocks `x0 … x3` of 5000 node rows
  (one per hop), the four weight matrices `x4`, the bias `x5` and the slope `x6`; entry `(r, f)` of what it stores is
  `prelu x6 (Σₖ x0[r,k]·x4[0,k,f] + Σₖ x1[r,k]·x4[1,k,f] + Σₖ x2[r,k]·x4[2,k,f] + Σₖ x3[r,k]·x4[3,k,f] + x5[f])`
  (the matrix unit's products into a zero accumulator, the format changes the identity on extended reals).  The second
  body stores, at `(0, 0, f)`, the sum of those entries over the block's 5000 rows.
-/
import proofs.«177928_j41618233098577_2_alg».proof.Proof.Gen.KernelIdeal.Frame
import proofs.«177928_j41618233098577_2_alg».proof.Proof.Act
import Idealize.ShloMosaic.Lib.ValueIdx
import Idealize.ShloMosaic.Lib.ValueLayout
import Idealize.ShloMosaic.Lib.Pipeline.Value
import Idealize.ShloMosaic.PureOps.Ideal.Laws

noncomputable section

namespace Cert.KernelLayer

open Idealize.ShloMosaic Idealize.ShloMosaic.ValueIdx Cert.KernelIdeal Cert.KernelIdeal.Gen Cert.Act

/-! ## Loads: the zero offsets, and a slab of the weight stack -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of slab `s` of the stack of four weight matrices reads, at `(0, k, f)`, the stack at `(s, k, f)`. -/
theorem ld_slab (x4 : Vec Ideal S4x128x128 .f32) (o : Nat) (s : Fin 4) (hs : s.val = o)
    (inb : ∀ a, (![o, 0, 0] : Fin 3 → Nat) a + S1x128x128.size a ≤ S4x128x128.size a) (k f : Fin 128) :
    View.ld x4 (Rect.unit (s := S4x128x128) ![o, 0, 0] S1x128x128.size inb) (ix3 (0 : Fin 1) k f) = x4 (ix3 s k f) := by
  subst hs
  refine congrArg x4 (funext fun a => Fin.ext ?_)
  match a with
  | ⟨0, _⟩ => show s.val + 1 * 0 = s.val; omega
  | ⟨1, _⟩ => show 0 + 1 * k.val = k.val; omega
  | ⟨2, _⟩ => show 0 + 1 * f.val = f.val; omega

/-! ## The matrix product at an index -/

theorem dot_lhs_0 (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide),
    dif_pos (show (0 : Fin S5000x128.rank) ∈ Cert.KernelIdeal.dot_S5000x128_S128x128_S5000x128_1_0_0_1_n_n.lhsNonContracting by decide)]
  rfl
theorem dot_rhs_1 (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide),
    dif_pos (show (1 : Fin S128x128.rank) ∈ Cert.KernelIdeal.dot_S5000x128_S128x128_S5000x128_1_0_0_1_n_n.rhsNonContracting by decide)]
  rfl

/-- A block of rows times one weight matrix into the zero accumulator: entry `(r, f)` is `Σₖ lhs[r,k] · rhs[k,f]`. -/
theorem matmul_ix2 {φ₁ φ₂ : FTy} (lhs : FVec Ideal S5000x128 φ₁) (rhs : FVec Ideal S128x128 φ₂) (r : Fin 5000) (f : Fin 128) :
    matmul Cert.KernelIdeal.dot_S5000x128_S128x128_S5000x128_1_0_0_1_n_n none lhs rhs (constant (F := Ideal) S5000x128 .f32 0x00000000#32) (ix2 r f)
      = ∑ k : Fin 128, lhs (ix2 r k) * rhs (ix2 k f) := by
  simp only [matmul]
  rw [Ideal.matmul_constant_zero_apply, ← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 r f) ((contrEquiv1 Cert.KernelIdeal.dot_S5000x128_S128x128_S5000x128_1_0_0_1_n_n 128 rfl rfl).symm k) = ix2 r k :=
    funext fun a => Fin.ext (by
      match a with
      | ⟨0, _⟩ => exact dot_lhs_0 _ _
      | ⟨1, _⟩ => exact ((Cert.KernelIdeal.dot_S5000x128_S128x128_S5000x128_1_0_0_1_n_n).lhsIdx_val_of_single rfl _ _).trans hk)
  have er : Cert.KernelIdeal.dot_S5000x128_S128x128_S5000x128_1_0_0_1_n_n.rhsIdx (ix2 r f) ((contrEquiv1 Cert.KernelIdeal.dot_S5000x128_S128x128_S5000x128_1_0_0_1_n_n 128 rfl rfl).symm k) = ix2 k f :=
    funext fun a => Fin.ext (by
      match a with
      | ⟨0, _⟩ => exact ((Cert.KernelIdeal.dot_S5000x128_S128x128_S5000x128_1_0_0_1_n_n).rhsIdx_val_of_single rfl _ _).trans hk
      | ⟨1, _⟩ => exact dot_rhs_1 _ _)
  rw [el, er]

/-! ## The slope's broadcast, and the row sum -/

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum over the 5000 rows of a block, at lane `f`. -/
theorem rowsum_apply (src : FVec Ideal S5000x128 .f32) (h : S5000x128.Reduces [0] S128) (hφ : FKind.Formats .f32)
    (hacc : (0x00000000#32 : BitVec 32) = FKind.add.neutral .f32 hφ) (f : Fin 128) :
    multiReduction (F := Ideal) .add [0] S128 src 0x00000000#32 h hφ hacc (ix1 f) = ∑ r : Fin 5000, src (ix2 r f) := by
  refine (Ideal.multiReduction_add_single src 0x00000000#32 h hφ hacc (ix1 f)).trans ?_
  refine Finset.sum_congr rfl fun r _ => congrArg src (funext fun a => Fin.ext ?_)
  match a with
  | ⟨0, _⟩ => rfl
  | ⟨1, _⟩ => rfl

/-! ## The payloads at an index -/

/-- The four products added up, at `(r, f)` (the zero the chain starts from is the extended real `0`). -/
theorem k0_pay2_apply (v1 : Vec Ideal S5000x128 .f32) (v3 : Vec Ideal S1x128x128 .f32) (v8 : Vec Ideal S5000x128 .f32)
    (v11 : Vec Ideal S1x128x128 .f32) (v16 : Vec Ideal S5000x128 .f32) (v19 : Vec Ideal S1x128x128 .f32)
    (v24 : Vec Ideal S5000x128 .f32) (v27 : Vec Ideal S1x128x128 .f32) (r : Fin 5000) (f : Fin 128) :
    k0_pay2 (F := Ideal) v1 v3 v8 v11 v16 v19 v24 v27 (ix2 r f)
      = (((∑ k : Fin 128, v1 (ix2 r k) * v3 (ix3 (0 : Fin 1) k f)) + ∑ k : Fin 128, v8 (ix2 r k) * v11 (ix3 (0 : Fin 1) k f))
          + ∑ k : Fin 128, v16 (ix2 r k) * v19 (ix3 (0 : Fin 1) k f)) + ∑ k : Fin 128, v24 (ix2 r k) * v27 (ix3 (0 : Fin 1) k f) := by
  unfold k0_pay2
  simp only [addf_apply, broadcast_apply, matmul_ix2, truncf_apply, shapeCast_self, shapeCast_1ab_ab_apply]
  rw [show (Scalar.ofBits .f32 0x00000000#32 : Ideal .f32) = 0 from Ideal.ofBits_zero_f32, zero_add]

/-- The bias added and the activation applied, at `(r, f)`. -/
theorem k0_pay1_apply (v31 : FVec Ideal S5000x128 .f32) (v32 : Vec Ideal S128 .f32) (v36 : Vec Ideal S1 .f32)
    (r : Fin 5000) (f : Fin 128) :
    k0_pay1 (F := Ideal) v31 v32 v36 (ix2 r f) = preluS (v36 (ix1 (0 : Fin 1))) (v31 (ix2 r f) + v32 (ix1 f)) := by
  unfold k0_pay1 preluS
  simp only [select_apply, cmpf_apply, addf_apply, mulf_apply, broadcast_apply, broadcastTo_1b_ab_apply,
    broadcastTo_11_ab_apply, shapeCast_a_1a_apply]
  rfl

/-- The second body's four products added up, at `(r, f)`: the same sums as the first body's. -/
theorem k1_pay2_apply (v1 : Vec Ideal S5000x128 .f32) (v4 : Vec Ideal S1x128x128 .f32) (v9 : Vec Ideal S5000x128 .f32)
    (v12 : Vec Ideal S1x128x128 .f32) (v17 : Vec Ideal S5000x128 .f32) (v20 : Vec Ideal S1x128x128 .f32)
    (v25 : Vec Ideal S5000x128 .f32) (v28 : Vec Ideal S1x128x128 .f32) (r : Fin 5000) (f : Fin 128) :
    k1_pay2 (F := Ideal) v1 v4 v9 v12 v17 v20 v25 v28 (ix2 r f)
      = (((∑ k : Fin 128, v1 (ix2 r k) * v4 (ix3 (0 : Fin 1) k f)) + ∑ k : Fin 128, v9 (ix2 r k) * v12 (ix3 (0 : Fin 1) k f))
          + ∑ k : Fin 128, v17 (ix2 r k) * v20 (ix3 (0 : Fin 1) k f)) + ∑ k : Fin 128, v25 (ix2 r k) * v28 (ix3 (0 : Fin 1) k f) := by
  unfold k1_pay2
  simp only [addf_apply, broadcast_apply, matmul_ix2, truncf_apply, shapeCast_self, shapeCast_1ab_ab_apply]
  rw [show (Scalar.ofBits .f32 0x00000000#32 : Ideal .f32) = 0 from Ideal.ofBits_zero_f32, zero_add]

/-- The second body's stored row at `(0, 0, f)`: the activated entries of the first body's last step, summed over
    the rows. -/
theorem k1_pay1_apply (v32 : FVec Ideal S5000x128 .f32) (v33 : Vec Ideal S128 .f32) (v37 : Vec Ideal S1 .f32) (f : Fin 128) :
    k1_pay1 (F := Ideal) v32 v33 v37 (ix3 (0 : Fin 1) (0 : Fin 1) f)
      = ∑ r : Fin 5000, preluS (v37 (ix1 (0 : Fin 1))) (v32 (ix2 r f) + v33 (ix1 f)) := by
  have e : k1_pay1 (F := Ideal) v32 v33 v37
      = shapeCast S1x1x128 (shapeCast S1x128 (multiReduction (F := Ideal) .add [0] S128 (k0_pay1 (F := Ideal) v32 v33 v37)
          0x00000000#32 reduces_S5000x128_S128 (.inl rfl) rfl) shapeCasts_S128_S1x128) shapeCasts_S1x128_S1x1x128 := rfl
  rw [e, shapeCast_ab_1ab_apply, shapeCast_a_1a_apply]
  refine (rowsum_apply _ _ _ _ f).trans ?_
  exact Finset.sum_congr rfl fun r _ => k0_pay1_apply v32 v33 v37 r f

/-- One hop's sum with the weight slab read through its load. -/
theorem sum_slab (x : Vec Ideal S5000x128 .f32) (x4 : Vec Ideal S4x128x128 .f32) (o : Nat) (s : Fin 4) (hs : s.val = o)
    (inb : ∀ a, (![o, 0, 0] : Fin 3 → Nat) a + S1x128x128.size a ≤ S4x128x128.size a) (r : Fin 5000) (f : Fin 128) :
    ∑ k : Fin 128, x (ix2 r k) * View.ld x4 (Rect.unit (s := S4x128x128) ![o, 0, 0] S1x128x128.size inb) (ix3 (0 : Fin 1) k f)
      = ∑ k : Fin 128, x (ix2 r k) * x4 (ix3 s k f) :=
  Finset.sum_congr rfl fun k _ => congrArg (x (ix2 r k) * ·) (ld_slab x4 o s hs inb k f)

/-! ## The stored blocks -/

/-- Entry `(r, f)` of a block's layer sum before the activation. -/
def blockAcc (x0 x1 x2 x3 : Vec Ideal S5000x128 .f32) (x4 : Vec Ideal S4x128x128 .f32) (x5 : Vec Ideal S128 .f32)
    (r : Fin 5000) (f : Fin 128) : Ideal .f32 :=
  accS (∑ k : Fin 128, x0 (ix2 r k) * x4 (ix3 (0 : Fin 4) k f)) (∑ k : Fin 128, x1 (ix2 r k) * x4 (ix3 (1 : Fin 4) k f))
    (∑ k : Fin 128, x2 (ix2 r k) * x4 (ix3 (2 : Fin 4) k f)) (∑ k : Fin 128, x3 (ix2 r k) * x4 (ix3 (3 : Fin 4) k f)) (x5 (ix1 f))

/-- The first body's stored block at `(r, f)`. -/
theorem out0_7_apply (x0 x1 x2 x3 : Vec Ideal S5000x128 .f32) (x4 : Vec Ideal S4x128x128 .f32) (x5 : Vec Ideal S128 .f32)
    (x6 : Vec Ideal S1 .f32) (r : Fin 5000) (f : Fin 128) :
    out0_7 (F := Ideal) x0 x1 x2 x3 x4 x5 x6 (ix2 r f) = preluS (x6 (ix1 (0 : Fin 1))) (blockAcc x0 x1 x2 x3 x4 x5 r f) := by
  unfold out0_7
  rw [View.canon_unit_zero zeros2]
  simp only [View.ld_unit_zero (S := S5000x128) zeros2, View.ld_unit_zero (S := S128) zeros1, View.ld_unit_zero (S := S1) zeros1]
  rw [k0_pay1_apply, k0_pay2_apply, sum_slab x0 x4 0 (0 : Fin 4) rfl, sum_slab x1 x4 1 (1 : Fin 4) rfl,
    sum_slab x2 x4 2 (2 : Fin 4) rfl, sum_slab x3 x4 3 (3 : Fin 4) rfl]
  rfl

/-- The second body's stored row at `(0, 0, f)`: the block's activated entries summed over its rows. -/
theorem out1_7_apply (x0 x1 x2 x3 : Vec Ideal S5000x128 .f32) (x4 : Vec Ideal S4x128x128 .f32) (x5 : Vec Ideal S128 .f32)
    (x6 : Vec Ideal S1 .f32) (f : Fin 128) :
    out1_7 (F := Ideal) x0 x1 x2 x3 x4 x5 x6 (ix3 (0 : Fin 1) (0 : Fin 1) f)
      = ∑ r : Fin 5000, preluS (x6 (ix1 (0 : Fin 1))) (blockAcc x0 x1 x2 x3 x4 x5 r f) := by
  unfold out1_7
  rw [View.canon_unit_zero zeros3]
  simp only [View.ld_unit_zero (S := S5000x128) zeros2, View.ld_unit_zero (S := S128) zeros1, View.ld_unit_zero (S := S1) zeros1]
  rw [k1_pay1_apply]
  refine Finset.sum_congr rfl fun r _ => ?_
  rw [k1_pay2_apply, sum_slab x0 x4 0 (0 : Fin 4) rfl, sum_slab x1 x4 1 (1 : Fin 4) rfl,
    sum_slab x2 x4 2 (2 : Fin 4) rfl, sum_slab x3 x4 3 (3 : Fin 4) rfl]
  rfl

end Cert.KernelLayer

end
-- ==== Proof.LayerRead.lean ====
/-
  A layer and the pooling read at an index, at the extended reals.  Entry `(i, f)` of a layer over hop tensors
  `h0 … h3` is `prelu a (Σₖ h0[i,k]·W[0,k,f] + Σₖ h1[i,k]·W[1,k,f] + Σₖ h2[i,k]·W[2,k,f] + Σₖ h3[i,k]·W[3,k,f] + b[f])`;
  entry `(0, f)` of the pooled row is `0` plus the sum over all 50000 nodes; and the host's sum of ten partial rows
  is `0` plus their sum.
-/
import proofs.«177928_j41618233098577_2_alg».proof.Proof.Spec
import proofs.«177928_j41618233098577_2_alg».proof.Proof.Act
import Idealize.ShloMosaic.Lib.ValueIdx
import Idealize.ShloMosaic.Lib.ValueLayout
import Idealize.ShloMosaic.Lib.Pipeline.Value
import Idealize.ShloMosaic.PureOps.Ideal.Laws

noncomputable section

namespace Cert.LayerRead

open Idealize.ShloMosaic Idealize.ShloMosaic.ValueIdx Cert.ReferenceIdeal Cert.Spec Cert.Act

/-- Entry `(i, f)` of a layer's sum before the activation. -/
def nodeAcc (h0 h1 h2 h3 : FVec Ideal S50000x128 .f32) (W : FVec Ideal S4x128x128 .f32) (b : FVec Ideal S128 .f32)
    (i : Fin 50000) (f : Fin 128) : Ideal .f32 :=
  accS (∑ k : Fin 128, h0 (ix2 i k) * W (ix3 (0 : Fin 4) k f)) (∑ k : Fin 128, h1 (ix2 i k) * W (ix3 (1 : Fin 4) k f))
    (∑ k : Fin 128, h2 (ix2 i k) * W (ix3 (2 : Fin 4) k f)) (∑ k : Fin 128, h3 (ix2 i k) * W (ix3 (3 : Fin 4) k f)) (b (ix1 f))

section Helpers
open Cert.ReferenceIdeal.Gen

variable {F : FTy → Type} [FloatOps F]

/-- Weight matrix 0 at (k, f). -/
theorem w0_apply (W : FVec F S4x128x128 .f32) (k f : Fin 128) :
    w0 (F := F) W (ix2 k f) = W (ix3 (0 : Fin 4) k f) := by
  unfold w0
  refine (shapeCast_apply _ shapeCasts_S1x128x128_S128x128 (ix2 k f) (ix3 (0 : Fin 1) k f) ?_).trans ?_
  · rewrite [Shape.rowMajor_val_three, Shape.rowMajor_val_two]
    show (0 * 128 + k.val) * 128 + f.val = k.val * 128 + f.val
    omega
  · exact extractStridedSlice_apply ![0, 0, 0] W slices_S4x128x128_S1x128x128_0_0_0 (ix3 (0 : Fin 1) k f) (ix3 (0 : Fin 4) k f)
      (fun a => match a with
        | ⟨0, _⟩ => by show (0 : Nat) = 0 + 0; rfl
        | ⟨1, _⟩ => by show k.val = 0 + k.val; omega
        | ⟨2, _⟩ => by show f.val = 0 + f.val; omega)

/-- Weight matrix 1 at (k, f). -/
theorem w1_apply (W : FVec F S4x128x128 .f32) (k f : Fin 128) :
    w1 (F := F) W (ix2 k f) = W (ix3 (1 : Fin 4) k f) := by
  unfold w1
  refine (shapeCast_apply _ shapeCasts_S1x128x128_S128x128 (ix2 k f) (ix3 (0 : Fin 1) k f) ?_).trans ?_
  · rewrite [Shape.rowMajor_val_three, Shape.rowMajor_val_two]
    show (0 * 128 + k.val) * 128 + f.val = k.val * 128 + f.val
    omega
  · exact extractStridedSlice_apply ![1, 0, 0] W slices_S4x128x128_S1x128x128_1_0_0 (ix3 (0 : Fin 1) k f) (ix3 (1 : Fin 4) k f)
      (fun a => match a with
        | ⟨0, _⟩ => by show (1 : Nat) = 1 + 0; rfl
        | ⟨1, _⟩ => by show k.val = 0 + k.val; omega
        | ⟨2, _⟩ => by show f.val = 0 + f.val; omega)

/-- Weight matrix 2 at (k, f). -/
theorem w2_apply (W : FVec F S4x128x128 .f32) (k f : Fin 128) :
    w2 (F := F) W (ix2 k f) = W (ix3 (2 : Fin 4) k f) := by
  unfold w2
  refine (shapeCast_apply _ shapeCasts_S1x128x128_S128x128 (ix2 k f) (ix3 (0 : Fin 1) k f) ?_).trans ?_
  · rewrite [Shape.rowMajor_val_three, Shape.rowMajor_val_two]
    show (0 * 128 + k.val) * 128 + f.val = k.val * 128 + f.val
    omega
  · exact extractStridedSlice_apply ![2, 0, 0] W slices_S4x128x128_S1x128x128_2_0_0 (ix3 (0 : Fin 1) k f) (ix3 (2 : Fin 4) k f)
      (fun a => match a with
        | ⟨0, _⟩ => by show (2 : Nat) = 2 + 0; rfl
        | ⟨1, _⟩ => by show k.val = 0 + k.val; omega
        | ⟨2, _⟩ => by show f.val = 0 + f.val; omega)

/-- Weight matrix 3 at (k, f). -/
theorem w3_apply (W : FVec F S4x128x128 .f32) (k f : Fin 128) :
    w3 (F := F) W (ix2 k f) = W (ix3 (3 : Fin 4) k f) := by
  unfold w3
  refine (shapeCast_apply _ shapeCasts_S1x128x128_S128x128 (ix2 k f) (ix3 (0 : Fin 1) k f) ?_).trans ?_
  · rewrite [Shape.rowMajor_val_three, Shape.rowMajor_val_two]
    show (0 * 128 + k.val) * 128 + f.val = k.val * 128 + f.val
    omega
  · exact extractStridedSlice_apply ![3, 0, 0] W slices_S4x128x128_S1x128x128_3_0_0 (ix3 (0 : Fin 1) k f) (ix3 (3 : Fin 4) k f)
      (fun a => match a with
        | ⟨0, _⟩ => by show (3 : Nat) = 3 + 0; rfl
        | ⟨1, _⟩ => by show k.val = 0 + k.val; omega
        | ⟨2, _⟩ => by show f.val = 0 + f.val; omega)

/-- The bias repeated along the node axis reads the bias at the feature. -/
theorem biasB_apply (b : FVec F S128 .f32) (i : Fin 50000) (f : Fin 128) :
    broadcastInDim S50000x128 ![0, 1] bcast_S1x128_S50000x128_0_1 (broadcastInDim S1x128 ![1] bcast_S128_S1x128_1 b) (ix2 i f)
      = b (ix1 f) := by
  refine (broadcastInDim_apply _ bcast_S1x128_S50000x128_0_1 _ (ix2 i f) (ix2 (0 : Fin 1) f) (fun a => match a with
    | ⟨0, _⟩ => by show 0 = if (1 : Nat) = 1 then 0 else i.val; rw [if_pos rfl]
    | ⟨1, _⟩ => by show f.val = if (128 : Nat) = 1 then 0 else f.val; rw [if_neg (by decide)])).trans ?_
  exact broadcastInDim_apply _ bcast_S128_S1x128_1 b (ix2 (0 : Fin 1) f) (ix1 f) (fun a => match a with
    | ⟨0, _⟩ => by show f.val = if (128 : Nat) = 1 then 0 else f.val; rw [if_neg (by decide)])

/-- The slope repeated over the whole array reads the one slope. -/
theorem slopeB_apply (a : FVec F S1 .f32) (i : Fin 50000) (f : Fin 128) :
    broadcastInDim S50000x128 ![0, 1] bcast_S1x1_S50000x128_0_1 (broadcastInDim S1x1 ![1] bcast_S1_S1x1_1 a) (ix2 i f)
      = a (ix1 (0 : Fin 1)) := by
  refine (broadcastInDim_apply _ bcast_S1x1_S50000x128_0_1 _ (ix2 i f) (ix2 (0 : Fin 1) (0 : Fin 1)) (fun c => match c with
    | ⟨0, _⟩ => by show 0 = if (1 : Nat) = 1 then 0 else i.val; rw [if_pos rfl]
    | ⟨1, _⟩ => by show 0 = if (1 : Nat) = 1 then 0 else f.val; rw [if_pos rfl])).trans ?_
  exact broadcastInDim_apply _ bcast_S1_S1x1_1 a (ix2 (0 : Fin 1) (0 : Fin 1)) (ix1 (0 : Fin 1)) (fun c => match c with
    | ⟨0, _⟩ => by show 0 = if (1 : Nat) = 1 then 0 else 0; rw [if_pos rfl])

/-- The zero repeated over the whole array reads zero. -/
theorem zeroB_apply (i : Fin 50000) (f : Fin 128) :
    broadcastInDim S50000x128 ![] bcast_S_S50000x128 (constant (F := Ideal) S_ .f32 0x00000000#32) (ix2 i f)
      = Ideal.ofBits .f32 0x00000000#32 :=
  broadcastInDim_apply _ bcast_S_S50000x128 _ (ix2 i f) ix0 (fun c => c.elim0)
/-- The dot's left operand index keeps the output row. -/
theorem dot_lhs0 (j : S50000x128.Idx) (q : dot_S50000x128_S128x128_S50000x128_1_0_0_1_n_n.contr.Idx) :
    (dot_S50000x128_S128x128_S50000x128_1_0_0_1_n_n.lhsIdx j q 0).val = (j 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- The dot's right operand index keeps the output column. -/
theorem dot_rhs1 (j : S50000x128.Idx) (q : dot_S50000x128_S128x128_S50000x128_1_0_0_1_n_n.contr.Idx) :
    (dot_S50000x128_S128x128_S50000x128_1_0_0_1_n_n.rhsIdx j q 1).val = (j 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (i, f) of node features times a weight matrix is the sum over the contracted axis. -/
theorem dotW_apply (h : FVec Ideal S50000x128 .f32) (w : FVec Ideal S128x128 .f32) (i : Fin 50000) (f : Fin 128) :
    dotW (F := Ideal) h w (ix2 i f) = ∑ k : Fin 128, h (ix2 i k) * w (ix2 k f) := by
  unfold dotW
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i f) ((ValueIdx.contrEquiv1 dot_S50000x128_S128x128_S50000x128_1_0_0_1_n_n 128 rfl rfl).symm k) = ix2 i k :=
    funext fun a => Fin.ext (by
      match a with
      | ⟨0, _⟩ => exact dot_lhs0 _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 i f) ((ValueIdx.contrEquiv1 dot_S50000x128_S128x128_S50000x128_1_0_0_1_n_n 128 rfl rfl).symm k) = ix2 k f :=
    funext fun a => Fin.ext (by
      match a with
      | ⟨0, _⟩ => exact (dot_S50000x128_S128x128_S50000x128_1_0_0_1_n_n.rhsIdx_val_of_single rfl _ _).trans hk
      | ⟨1, _⟩ => exact dot_rhs1 _ _)
  rw [el, er]

/-- A layer's sum before the activation at (i, f). -/
theorem accT_apply (h0 h1 h2 h3 : FVec Ideal S50000x128 .f32) (W : FVec Ideal S4x128x128 .f32) (b : FVec Ideal S128 .f32)
    (i : Fin 50000) (f : Fin 128) :
    accT (F := Ideal) h0 h1 h2 h3 W b (ix2 i f) = nodeAcc h0 h1 h2 h3 W b i f := by
  unfold accT nodeAcc accS
  rw [addf_apply, addf_apply, addf_apply, addf_apply, biasB_apply, dotW_apply, dotW_apply, dotW_apply, dotW_apply]
  simp only [w0_apply, w1_apply, w2_apply, w3_apply]

end Helpers

/-- A layer at `(i, f)`. -/
theorem layerT_apply (h0 h1 h2 h3 : FVec Ideal S50000x128 .f32) (W : FVec Ideal S4x128x128 .f32) (b : FVec Ideal S128 .f32)
    (a : FVec Ideal S1 .f32) (i : Fin 50000) (f : Fin 128) :
    layerT (F := Ideal) h0 h1 h2 h3 W b a (ix2 i f) = preluS (a (ix1 (0 : Fin 1))) (nodeAcc h0 h1 h2 h3 W b i f) := by
  unfold layerT preluS
  rw [select_apply, cmpf_apply, mulf_apply, accT_apply, slopeB_apply, zeroB_apply]

/-- The pooled row at `(0, f)`: zero plus the sum over all nodes. -/
theorem poolT_apply (act : FVec Ideal S50000x128 .f32) (f : Fin 128) :
    poolT (F := Ideal) act (ix2 (0 : Fin 1) f) = Ideal.ofBits .f32 0x00000000#32 + ∑ i : Fin 50000, act (ix2 i f) := by
  unfold poolT
  refine (broadcastInDim_apply _ Gen.bcast_S128_S1x128_1 _ (ix2 (0 : Fin 1) f) (ix1 f) (fun c => match c with
    | ⟨0, _⟩ => by show f.val = if (128 : Nat) = 1 then 0 else f.val; rw [if_neg (by decide)])).trans ?_
  simp only [Host.reduceAdd, Ideal.hostReduceAdd_def]
  rw [Ideal.hostReduceAdd_single Gen.reducesTo_S50000x128_S128_d0 (by decide)]
  refine congrArg₂ (· + ·) rfl (Finset.sum_congr rfl fun k _ => ?_)
  exact congrArg act (funext fun c => Fin.ext (by match c with | ⟨0, _⟩ => rfl | ⟨1, _⟩ => rfl))

/-- The host's sum of the ten partial rows at `(0, f)`: zero plus their sum. -/
theorem partials_apply (p : FVec Ideal Cert.KernelIdeal.S10x1x128 .f32) (f : Fin 128) :
    Host.reduceAdd (F := Ideal) p (constant (F := Ideal) S_ .f32 0x00000000#32) Cert.KernelIdeal.Facts₀.reducesTo_S10x1x128_S1x128_d0 Cert.KernelIdeal.Facts₀.h_S_
        (ix2 (0 : Fin 1) f)
      = Ideal.ofBits .f32 0x00000000#32 + ∑ t : Fin 10, p (ix3 t (0 : Fin 1) f) := by
  simp only [Host.reduceAdd, Ideal.hostReduceAdd_def]
  rw [Ideal.hostReduceAdd_single Cert.KernelIdeal.Facts₀.reducesTo_S10x1x128_S1x128_d0 (by decide)]
  refine congrArg₂ (· + ·) rfl (Finset.sum_congr rfl fun k _ => ?_)
  exact congrArg p (funext fun c => Fin.ext (by match c with | ⟨0, _⟩ => rfl | ⟨1, _⟩ => rfl | ⟨2, _⟩ => rfl))

end Cert.LayerRead

end
-- ==== Proof.RegionValue.lean ====
/-
  The two pipelined regions' output arrays as whole-array functions of the arrays the regions find.  Region 0 walks ten
  blocks of 5000 node rows; at block `t` it reads rows `5000·t … 5000·t + 4999` of the four hop tensors and the whole
  weights, bias and slope, and writes those rows of its output: the output array is the layer `layerT` of the input
  arrays, row by row.  Region 1 does the same and then writes, for block `t`, the sum of the block's 5000 activated rows
  at row `t` of a [10, 1, 128] array; the host's sum of those ten rows is the sum over all 50000 nodes, regrouped.
-/
import proofs.«177928_j41618233098577_2_alg».proof.Proof.Gen.KernelIdeal.Frame
import proofs.«177928_j41618233098577_2_alg».proof.Proof.Spec
import proofs.«177928_j41618233098577_2_alg».proof.Proof.KernelLayer
import proofs.«177928_j41618233098577_2_alg».proof.Proof.LayerRead
import Idealize.ShloMosaic.Lib.Pipeline.Value

set_option maxRecDepth 16384

noncomputable section

namespace Cert.RegionValue

open Idealize.ShloMosaic Idealize.ShloMosaic.TcCoe Idealize.ShloMosaic.ValueIdx Cert.KernelIdeal Cert.KernelIdeal.Gen Cert.Spec
open Idealize.ShloMosaic.Pipeline (Dat Cfg Window)
open Cert.Act Cert.KernelLayer Cert.LayerRead

variable (V : (c : Dev nD) → (b : Ref sig .tc) → Buf (Elt Ideal) ((c : Thread nD τ).loc b))

/-- Regrouping a sum over `m·n` terms into `m` blocks of `n`. -/
theorem sum_blocks_mul {M : Type*} [AddCommMonoid M] (m n : ℕ) (g : Fin (m * n) → M) :
    ∑ t : Fin m, ∑ r : Fin n, g (finProdFinEquiv (t, r)) = ∑ i : Fin (m * n), g i :=
  (Fintype.sum_prod_type' (fun t r => g (finProdFinEquiv (t, r)))).symm.trans (Equiv.sum_comp finProdFinEquiv g)

/-- A sum over 50000 nodes is the sum over ten blocks of the sums over each block's 5000 rows. -/
theorem sum_blocks {M : Type*} [AddCommMonoid M] (g : Fin 50000 → M) :
    ∑ t : Fin 10, ∑ r : Fin 5000, g ⟨5000 * t.val + r.val, by have := t.isLt; have := r.isLt; omega⟩ = ∑ i : Fin 50000, g i := by
  refine Eq.trans ?_ (sum_blocks_mul 10 5000 g)
  refine Finset.sum_congr rfl fun t _ => Finset.sum_congr rfl fun r _ => congrArg g (Fin.ext ?_)
  show 5000 * t.val + r.val = r.val + 5000 * t.val
  omega

/-- The block indices at point `t` of region 0, decided over the ten points: the four hop windows and the output move along
    the rows with `t`; the weights, bias and slope stay at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 1) = 0
    ∧ win0_6.index t (0 : Fin 1) = 0
    ∧ win0_7.index t (0 : Fin 2) = t.val ∧ win0_7.index t (1 : Fin 2) = 0 :=
  (by decide +kernel : ∀ t : Fin grid0.N, _)

theorem rows0_0 (c : Dev nD) (t : Fin cfg0.N) (r : Fin 5000) (k : Fin 128) (i : Fin 50000) (hi : i.val = 5000 * t.val + r.val) :
    (iblk0 V c 0 t : Vec Ideal S5000x128 .f32) (ix2 r k) = (V c main_arg0 : S50000x128.Idx → Elt Ideal .f32) (ix2 i k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 5000 + 1 * r.val = i.val; omega
  | ⟨1, _⟩ => show win0_0.index t 1 * 128 + 1 * k.val = k.val; omega

/-- An index of the output array is in point `t`'s block iff each coordinate is in the block's range on its axis. -/
theorem mem_outBlock0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v62).slice (win0_7.rect t)).set ↔ _
  rw [View.set_slice_whole, Rect.mem_set_unit]
  exact Iff.rfl

/-- Every index of the output array is in the block of the point `row / 5000`. -/
theorem outBlocks_cover0 (i : S50000x128.Idx) : ∃ t : Fin cfg0.N, (cfg0.win 7).flush t = true ∧ i ∈ ((cfg0.win 7).blk t).view.set := by
  have h0 : (i 0).val < 50000 := (i 0).isLt
  have h1 : (i 1).val < 128 := (i 1).isLt
  have hN : cfg0.N = 10 := N_0
  have ht : (i 0).val / 5000 < cfg0.N := by rw [hN]; omega
  obtain ⟨-, -, -, -, -, -, -, -, -, -, -, -, -, e0, e1⟩ := blockIndex0 ⟨(i 0).val / 5000, ht⟩
  refine ⟨⟨(i 0).val / 5000, ht⟩, flush0_7 _, ?_⟩
  rw [mem_outBlock0]
  intro a
  match a with
  | ⟨0, _⟩ =>
    show win0_7.index ⟨(i 0).val / 5000, ht⟩ 0 * 5000 ≤ (i 0).val ∧ (i 0).val < win0_7.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ 1 * 128 ≤ (i 1).val ∧ (i 1).val < win0_7.index ⟨(i 0).val / 5000, ht⟩ 1 * 128 + 128
    rw [e1]; omega

/-- Row `r` of window 1's block at point `t` is row `5000·t + r` of its array. -/
theorem rows0_1 (c : Dev nD) (t : Fin cfg0.N) (r : Fin 5000) (k : Fin 128) (i : Fin 50000) (hi : i.val = 5000 * t.val + r.val) :
    (iblk0 V c 1 t : Vec Ideal S5000x128 .f32) (ix2 r k) = (V c main_v29 : S50000x128.Idx → Elt Ideal .f32) (ix2 i k) := by
  obtain ⟨-, -, e0, e1, -⟩ := blockIndex0 t
  unfold iblk0
  rw [View.read_apply]
  show V c main_v29 _ = V c main_v29 _
  congr 1
  funext a
  apply Fin.ext
  match a with
  | ⟨0, _⟩ => show win0_1.index t 0 * 5000 + 1 * r.val = i.val; omega
  | ⟨1, _⟩ => show win0_1.index t 1 * 128 + 1 * k.val = k.val; omega

/-- Row `r` of window 2's block at point `t` is row `5000·t + r` of its array. -/
theorem rows0_2 (c : Dev nD) (t : Fin cfg0.N) (r : Fin 5000) (k : Fin 128) (i : Fin 50000) (hi : i.val = 5000 * t.val + r.val) :
    (iblk0 V c 2 t : Vec Ideal S5000x128 .f32) (ix2 r k) = (V c main_v45 : S50000x128.Idx → Elt Ideal .f32) (ix2 i k) := by
  obtain ⟨-, -, -, -, e0, e1, -⟩ := blockIndex0 t
  unfold iblk0
  rw [View.read_apply]
  show V c main_v45 _ = V c main_v45 _
  congr 1
  funext a
  apply Fin.ext
  match a with
  | ⟨0, _⟩ => show win0_2.index t 0 * 5000 + 1 * r.val = i.val; omega
  | ⟨1, _⟩ => show win0_2.index t 1 * 128 + 1 * k.val = k.val; omega

/-- Row `r` of window 3's block at point `t` is row `5000·t + r` of its array. -/
theorem rows0_3 (c : Dev nD) (t : Fin cfg0.N) (r : Fin 5000) (k : Fin 128) (i : Fin 50000) (hi : i.val = 5000 * t.val + r.val) :
    (iblk0 V c 3 t : Vec Ideal S5000x128 .f32) (ix2 r k) = (V c main_v61 : S50000x128.Idx → Elt Ideal .f32) (ix2 i k) := by
  obtain ⟨-, -, -, -, -, -, e0, e1, -⟩ := blockIndex0 t
  unfold iblk0
  rw [View.read_apply]
  show V c main_v61 _ = V c main_v61 _
  congr 1
  funext a
  apply Fin.ext
  match a with
  | ⟨0, _⟩ => show win0_3.index t 0 * 5000 + 1 * r.val = i.val; omega
  | ⟨1, _⟩ => show win0_3.index t 1 * 128 + 1 * k.val = k.val; omega

/-- Window 4's block at every point is its whole array. -/
theorem weights0_eq (c : Dev nD) (t : Fin cfg0.N) :
    (iblk0 V c 4 t : Vec Ideal S4x128x128 .f32) = (V c main_arg2 : S4x128x128.Idx → Elt Ideal .f32) := by
  obtain ⟨-, -, -, -, -, -, -, -, e0, e1, e2, -⟩ := blockIndex0 t
  funext x
  unfold iblk0
  rw [View.read_apply]
  show V c main_arg2 _ = V c main_arg2 _
  congr 1
  funext a
  apply Fin.ext
  match a with
  | ⟨0, _⟩ => show win0_4.index t 0 * 4 + 1 * (x 0).val = (x 0).val; omega
  | ⟨1, _⟩ => show win0_4.index t 1 * 128 + 1 * (x 1).val = (x 1).val; omega
  | ⟨2, _⟩ => show win0_4.index t 2 * 128 + 1 * (x 2).val = (x 2).val; omega

/-- Window 5's block at every point is its whole array. -/
theorem bias0_eq (c : Dev nD) (t : Fin cfg0.N) :
    (iblk0 V c 5 t : Vec Ideal S128 .f32) = (V c main_arg3 : S128.Idx → Elt Ideal .f32) := by
  obtain ⟨-, -, -, -, -, -, -, -, -, -, -, e0, -⟩ := blockIndex0 t
  funext x
  unfold iblk0
  rw [View.read_apply]
  show V c main_arg3 _ = V c main_arg3 _
  congr 1
  funext a
  apply Fin.ext
  match a with
  | ⟨0, _⟩ => show win0_5.index t 0 * 128 + 1 * (x 0).val = (x 0).val; omega

/-- Window 6's block at every point is its whole array. -/
theorem slope0_eq (c : Dev nD) (t : Fin cfg0.N) :
    (iblk0 V c 6 t : Vec Ideal S1 .f32) = (V c main_arg4 : S1.Idx → Elt Ideal .f32) := by
  obtain ⟨-, -, -, -, -, -, -, -, -, -, -, -, e0, -⟩ := blockIndex0 t
  funext x
  unfold iblk0
  rw [View.read_apply]
  show V c main_arg4 _ = V c main_arg4 _
  congr 1
  funext a
  apply Fin.ext
  match a with
  | ⟨0, _⟩ => show win0_6.index t 0 * 1 + 1 * (x 0).val = (x 0).val; omega

/-- Entry `(r, f)` of the output block at point `t` sits at `(5000·t + r, f)` of the output array. -/
theorem outEntry0_pos (t : Fin cfg0.N) (r : Fin 5000) (f : Fin 128) (i : Fin 50000) (hi : i.val = 5000 * t.val + r.val) :
    ((cfg0.win 7).blk t).view.emb (ix2 r f) = (ix2 i f : S50000x128.Idx) := by
  obtain ⟨-, -, -, -, -, -, -, -, -, -, -, -, -, e0, e1⟩ := blockIndex0 t
  funext a
  apply Fin.ext
  match a with
  | ⟨0, _⟩ => show win0_7.index t 0 * 5000 + 1 * r.val = i.val; omega
  | ⟨1, _⟩ => show win0_7.index t 1 * 128 + 1 * f.val = f.val; omega

/-- A block's activated entry is the layer's entry at the node the block row is, when the block rows are the
    array rows and the weights, bias and slope are the arrays themselves. -/
theorem block_entry (x0 x1 x2 x3 : Vec Ideal S5000x128 .f32) (x4 : Vec Ideal S4x128x128 .f32) (x5 : Vec Ideal S128 .f32) (x6 : Vec Ideal S1 .f32)
    (h0 h1 h2 h3 : FVec Ideal S50000x128 .f32) (W : FVec Ideal S4x128x128 .f32) (b : FVec Ideal S128 .f32) (a : FVec Ideal S1 .f32)
    (r : Fin 5000) (i : Fin 50000) (f : Fin 128)
    (e0 : ∀ k : Fin 128, x0 (ix2 r k) = h0 (ix2 i k)) (e1 : ∀ k : Fin 128, x1 (ix2 r k) = h1 (ix2 i k))
    (e2 : ∀ k : Fin 128, x2 (ix2 r k) = h2 (ix2 i k)) (e3 : ∀ k : Fin 128, x3 (ix2 r k) = h3 (ix2 i k))
    (e4 : x4 = W) (e5 : x5 = b) (e6 : x6 = a) :
    preluS (x6 (ix1 (0 : Fin 1))) (blockAcc x0 x1 x2 x3 x4 x5 r f) = layerT (F := Ideal) h0 h1 h2 h3 W b a (ix2 i f) := by
  subst e4 e5 e6
  rw [layerT_apply]
  unfold blockAcc nodeAcc
  simp only [e0, e1, e2, e3]

/-- What point `t` writes back is block `t` of the layer of the input arrays. -/
theorem written0_eq (c : Dev nD) (t : Fin cfg0.N) :
    (dat0 (F := Ideal) V c).flushed 7 t = ((cfg0.win 7).blk t).view.read (Elt Ideal)
      (layerT (F := Ideal) (V c main_arg0) (V c main_v29) (V c main_v45) (V c main_v61) (V c main_arg2) (V c main_arg3) (V c main_arg4)) := by
  show (cfg0.win 7).cut (grid0.coords t) ((dat0 (F := Ideal) V c).after 7 t) = _
  rw [after0_7]
  funext j
  obtain ⟨r, f, rfl⟩ : ∃ (r : Fin 5000) (f : Fin 128), j = ix2 r f := ⟨j 0, j 1, eq_ix2 j⟩
  have hN : cfg0.N = 10 := N_0
  have ht : t.val < 10 := lt_of_lt_of_eq t.isLt hN
  have hr : r.val < 5000 := r.isLt
  have hi : 5000 * t.val + r.val < 50000 := by omega
  show out0_7 (F := Ideal) (iblk0 V c 0 t) (iblk0 V c 1 t) (iblk0 V c 2 t) (iblk0 V c 3 t) (iblk0 V c 4 t) (iblk0 V c 5 t) (iblk0 V c 6 t) (ix2 r f)
    = layerT (F := Ideal) (V c main_arg0) (V c main_v29) (V c main_v45) (V c main_v61) (V c main_arg2) (V c main_arg3) (V c main_arg4)
        (((cfg0.win 7).blk t).view.emb (ix2 r f))
  rw [outEntry0_pos t r f ⟨5000 * t.val + r.val, hi⟩ rfl]
  refine (out0_7_apply (iblk0 V c 0 t) (iblk0 V c 1 t) (iblk0 V c 2 t) (iblk0 V c 3 t) (iblk0 V c 4 t) (iblk0 V c 5 t) (iblk0 V c 6 t) r f).trans ?_
  exact block_entry (iblk0 V c 0 t) (iblk0 V c 1 t) (iblk0 V c 2 t) (iblk0 V c 3 t) (iblk0 V c 4 t) (iblk0 V c 5 t) (iblk0 V c 6 t)
    (V c main_arg0) (V c main_v29) (V c main_v45) (V c main_v61) (V c main_arg2) (V c main_arg3) (V c main_arg4)
    r ⟨5000 * t.val + r.val, hi⟩ f
    (fun k => rows0_0 V c t r k ⟨5000 * t.val + r.val, hi⟩ rfl) (fun k => rows0_1 V c t r k ⟨5000 * t.val + r.val, hi⟩ rfl)
    (fun k => rows0_2 V c t r k ⟨5000 * t.val + r.val, hi⟩ rfl) (fun k => rows0_3 V c t r k ⟨5000 * t.val + r.val, hi⟩ rfl)
    (weights0_eq V c t) (bias0_eq V c t) (slope0_eq V c t)

/-- Region 0's output array, when it has run over all ten blocks, is the layer of its input arrays. -/
theorem region0_value (c : Dev nD) :
    (dat0 (F := Ideal) V c).arrAt 7 cfg0.N
      = layerT (F := Ideal) (V c main_arg0) (V c main_v29) (V c main_v45) (V c main_v61) (V c main_arg2) (V c main_arg3) (V c main_arg4) :=
  (dat0 (F := Ideal) V c).arrAt_eq_of_cover 7 _ (fun t _ => written0_eq V c t) outBlocks_cover0

/-- The block indices at point `t` of region 1, decided over the ten points: the four hop windows move along the rows with `t`,
    the output along its first axis; the weights, bias and slope stay at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 1) = 0
    ∧ win1_6.index t (0 : Fin 1) = 0
    ∧ win1_7.index t (0 : Fin 3) = t.val ∧ win1_7.index t (1 : Fin 3) = 0 ∧ win1_7.index t (2 : Fin 3) = 0 :=
  (by decide +kernel : ∀ t : Fin grid1.N, _)

/-- Row `r` of window 0's block at point `t` is row `5000·t + r` of its array. -/
theorem rows1_0 (c : Dev nD) (t : Fin cfg1.N) (r : Fin 5000) (k : Fin 128) (i : Fin 50000) (hi : i.val = 5000 * t.val + r.val) :
    (iblk1 V c 0 t : Vec Ideal S5000x128 .f32) (ix2 r k) = (V c main_v62 : S50000x128.Idx → Elt Ideal .f32) (ix2 i k) := by
  obtain ⟨e0, e1, -⟩ := blockIndex1 t
  unfold iblk1
  rw [View.read_apply]
  show V c main_v62 _ = V c main_v62 _
  congr 1
  funext a
  apply Fin.ext
  match a with
  | ⟨0, _⟩ => show win1_0.index t 0 * 5000 + 1 * r.val = i.val; omega
  | ⟨1, _⟩ => show win1_0.index t 1 * 128 + 1 * k.val = k.val; omega

/-- Row `r` of window 1's block at point `t` is row `5000·t + r` of its array. -/
theorem rows1_1 (c : Dev nD) (t : Fin cfg1.N) (r : Fin 5000) (k : Fin 128) (i : Fin 50000) (hi : i.val = 5000 * t.val + r.val) :
    (iblk1 V c 1 t : Vec Ideal S5000x128 .f32) (ix2 r k) = (V c main_v78 : S50000x128.Idx → Elt Ideal .f32) (ix2 i k) := by
  obtain ⟨-, -, e0, e1, -⟩ := blockIndex1 t
  unfold iblk1
  rw [View.read_apply]
  show V c main_v78 _ = V c main_v78 _
  congr 1
  funext a
  apply Fin.ext
  match a with
  | ⟨0, _⟩ => show win1_1.index t 0 * 5000 + 1 * r.val = i.val; omega
  | ⟨1, _⟩ => show win1_1.index t 1 * 128 + 1 * k.val = k.val; omega

/-- Row `r` of window 2's block at point `t` is row `5000·t + r` of its array. -/
theorem rows1_2 (c : Dev nD) (t : Fin cfg1.N) (r : Fin 5000) (k : Fin 128) (i : Fin 50000) (hi : i.val = 5000 * t.val + r.val) :
    (iblk1 V c 2 t : Vec Ideal S5000x128 .f32) (ix2 r k) = (V c main_v94 : S50000x128.Idx → Elt Ideal .f32) (ix2 i k) := by
  obtain ⟨-, -, -, -, e0, e1, -⟩ := blockIndex1 t
  unfold iblk1
  rw [View.read_apply]
  show V c main_v94 _ = V c main_v94 _
  congr 1
  funext a
  apply Fin.ext
  match a with
  | ⟨0, _⟩ => show win1_2.index t 0 * 5000 + 1 * r.val = i.val; omega
  | ⟨1, _⟩ => show win1_2.index t 1 * 128 + 1 * k.val = k.val; omega

/-- Row `r` of window 3's block at point `t` is row `5000·t + r` of its array. -/
theorem rows1_3 (c : Dev nD) (t : Fin cfg1.N) (r : Fin 5000) (k : Fin 128) (i : Fin 50000) (hi : i.val = 5000 * t.val + r.val) :
    (iblk1 V c 3 t : Vec Ideal S5000x128 .f32) (ix2 r k) = (V c main_v110 : S50000x128.Idx → Elt Ideal .f32) (ix2 i k) := by
  obtain ⟨-, -, -, -, -, -, e0, e1, -⟩ := blockIndex1 t
  unfold iblk1
  rw [View.read_apply]
  show V c main_v110 _ = V c main_v110 _
  congr 1
  funext a
  apply Fin.ext
  match a with
  | ⟨0, _⟩ => show win1_3.index t 0 * 5000 + 1 * r.val = i.val; omega
  | ⟨1, _⟩ => show win1_3.index t 1 * 128 + 1 * k.val = k.val; omega

/-- Window 4's block at every point is its whole array. -/
theorem weights1_eq (c : Dev nD) (t : Fin cfg1.N) :
    (iblk1 V c 4 t : Vec Ideal S4x128x128 .f32) = (V c main_arg5 : S4x128x128.Idx → Elt Ideal .f32) := by
  obtain ⟨-, -, -, -, -, -, -, -, e0, e1, e2, -⟩ := blockIndex1 t
  funext x
  unfold iblk1
  rw [View.read_apply]
  show V c main_arg5 _ = V c main_arg5 _
  congr 1
  funext a
  apply Fin.ext
  match a with
  | ⟨0, _⟩ => show win1_4.index t 0 * 4 + 1 * (x 0).val = (x 0).val; omega
  | ⟨1, _⟩ => show win1_4.index t 1 * 128 + 1 * (x 1).val = (x 1).val; omega
  | ⟨2, _⟩ => show win1_4.index t 2 * 128 + 1 * (x 2).val = (x 2).val; omega

/-- Window 5's block at every point is its whole array. -/
theorem bias1_eq (c : Dev nD) (t : Fin cfg1.N) :
    (iblk1 V c 5 t : Vec Ideal S128 .f32) = (V c main_arg6 : S128.Idx → Elt Ideal .f32) := by
  obtain ⟨-, -, -, -, -, -, -, -, -, -, -, e0, -⟩ := blockIndex1 t
  funext x
  unfold iblk1
  rw [View.read_apply]
  show V c main_arg6 _ = V c main_arg6 _
  congr 1
  funext a
  apply Fin.ext
  match a with
  | ⟨0, _⟩ => show win1_5.index t 0 * 128 + 1 * (x 0).val = (x 0).val; omega

/-- Window 6's block at every point is its whole array. -/
theorem slope1_eq (c : Dev nD) (t : Fin cfg1.N) :
    (iblk1 V c 6 t : Vec Ideal S1 .f32) = (V c main_arg7 : S1.Idx → Elt Ideal .f32) := by
  obtain ⟨-, -, -, -, -, -, -, -, -, -, -, -, e0, -⟩ := blockIndex1 t
  funext x
  unfold iblk1
  rw [View.read_apply]
  show V c main_arg7 _ = V c main_arg7 _
  congr 1
  funext a
  apply Fin.ext
  match a with
  | ⟨0, _⟩ => show win1_6.index t 0 * 1 + 1 * (x 0).val = (x 0).val; omega

/-- The sum of the 5000 rows of block `t` of a [50000, 128] array, at feature `f`. -/
def blockSum (act : FVec Ideal S50000x128 .f32) (t : Fin 10) (f : Fin 128) : Ideal .f32 :=
  ∑ r : Fin 5000, act (ix2 (⟨5000 * t.val + r.val, by have := t.isLt; have := r.isLt; omega⟩ : Fin 50000) f)

/-- The ten partial rows of a [50000, 128] array: row `t` is the sum of the rows of block `t`. -/
def partialsT (act : FVec Ideal S50000x128 .f32) : FVec Ideal S10x1x128 .f32 :=
  fun i => blockSum act (i 0) (i 2)

/-- Row `t` of the partial rows at feature `f`. -/
theorem partialsT_apply (act : FVec Ideal S50000x128 .f32) (t : Fin 10) (f : Fin 128) :
    partialsT act (ix3 t (0 : Fin 1) f) = blockSum act t f := rfl

/-- Entry `(0, 0, f)` of the output block at point `t` sits at `(t, 0, f)` of the output array. -/
theorem outEntry1_pos (t : Fin cfg1.N) (f : Fin 128) (q : Fin 10) (hq : q.val = t.val) :
    ((cfg1.win 7).blk t).view.emb (ix3 (0 : Fin 1) (0 : Fin 1) f) = (ix3 q (0 : Fin 1) f : S10x1x128.Idx) := by
  obtain ⟨-, -, -, -, -, -, -, -, -, -, -, -, -, e0, e1, e2⟩ := blockIndex1 t
  funext a
  apply Fin.ext
  match a with
  | ⟨0, _⟩ => show win1_7.index t 0 * 1 + 1 * 0 = q.val; omega
  | ⟨1, _⟩ => show win1_7.index t 1 * 1 + 1 * 0 = 0; omega
  | ⟨2, _⟩ => show win1_7.index t 2 * 128 + 1 * f.val = f.val; omega

/-- An index of the partial-rows array is in point `t`'s block iff each coordinate is in the block's range on its axis. -/
theorem mem_outBlock1 (t : Fin cfg1.N) (i : S10x1x128.Idx) :
    i ∈ ((cfg1.win 7).blk t).view.set ↔ ∀ a : Fin 3, win1_7.index t a * S1x1x128.size a ≤ (i a).val ∧ (i a).val < win1_7.index t a * S1x1x128.size a + S1x1x128.size a := by
  show i ∈ ((View.whole main_v111).slice (win1_7.rect t)).set ↔ _
  rw [View.set_slice_whole, Rect.mem_set_unit]
  exact Iff.rfl

/-- Every index of the partial-rows array is in the block of the point its first coordinate names. -/
theorem outBlocks_cover1 (i : S10x1x128.Idx) : ∃ t : Fin cfg1.N, (cfg1.win 7).flush t = true ∧ i ∈ ((cfg1.win 7).blk t).view.set := by
  have h0 : (i 0).val < 10 := (i 0).isLt
  have h1 : (i 1).val < 1 := (i 1).isLt
  have h2 : (i 2).val < 128 := (i 2).isLt
  have hN : cfg1.N = 10 := N_1
  have ht : (i 0).val < cfg1.N := by rw [hN]; exact h0
  obtain ⟨-, -, -, -, -, -, -, -, -, -, -, -, -, e0, e1, e2⟩ := blockIndex1 ⟨(i 0).val, ht⟩
  refine ⟨⟨(i 0).val, ht⟩, flush1_7 _, ?_⟩
  rw [mem_outBlock1]
  intro a
  match a with
  | ⟨0, _⟩ =>
    show win1_7.index ⟨(i 0).val, ht⟩ 0 * 1 ≤ (i 0).val ∧ (i 0).val < win1_7.index ⟨(i 0).val, ht⟩ 0 * 1 + 1
    rw [e0]; show (i 0).val * 1 ≤ (i 0).val ∧ (i 0).val < (i 0).val * 1 + 1; omega
  | ⟨1, _⟩ =>
    show win1_7.index ⟨(i 0).val, ht⟩ 1 * 1 ≤ (i 1).val ∧ (i 1).val < win1_7.index ⟨(i 0).val, ht⟩ 1 * 1 + 1
    rw [e1]; omega
  | ⟨2, _⟩ =>
    show win1_7.index ⟨(i 0).val, ht⟩ 2 * 128 ≤ (i 2).val ∧ (i 2).val < win1_7.index ⟨(i 0).val, ht⟩ 2 * 128 + 128
    rw [e2]; omega

/-- What point `t` writes back is block `t` of the partial rows of the layer of the input arrays. -/
theorem written1_eq (c : Dev nD) (t : Fin cfg1.N) :
    (dat1 (F := Ideal) V c).flushed 7 t = ((cfg1.win 7).blk t).view.read (Elt Ideal)
      (partialsT (layerT (F := Ideal) (V c main_v62) (V c main_v78) (V c main_v94) (V c main_v110) (V c main_arg5) (V c main_arg6) (V c main_arg7))) := by
  show (cfg1.win 7).cut (grid1.coords t) ((dat1 (F := Ideal) V c).after 7 t) = _
  rw [after1_7]
  funext j
  obtain ⟨a, b, f, rfl⟩ : ∃ (a : Fin 1) (b : Fin 1) (f : Fin 128), j = ix3 a b f := ⟨j 0, j 1, j 2, eq_ix3 j⟩
  obtain rfl : a = 0 := Subsingleton.elim _ _
  obtain rfl : b = 0 := Subsingleton.elim _ _
  have hN : cfg1.N = 10 := N_1
  have ht : t.val < 10 := lt_of_lt_of_eq t.isLt hN
  show out1_7 (F := Ideal) (iblk1 V c 0 t) (iblk1 V c 1 t) (iblk1 V c 2 t) (iblk1 V c 3 t) (iblk1 V c 4 t) (iblk1 V c 5 t) (iblk1 V c 6 t) (ix3 (0 : Fin 1) (0 : Fin 1) f)
    = partialsT (layerT (F := Ideal) (V c main_v62) (V c main_v78) (V c main_v94) (V c main_v110) (V c main_arg5) (V c main_arg6) (V c main_arg7))
        (((cfg1.win 7).blk t).view.emb (ix3 (0 : Fin 1) (0 : Fin 1) f))
  rw [outEntry1_pos t f ⟨t.val, ht⟩ rfl, partialsT_apply]
  refine (out1_7_apply (iblk1 V c 0 t) (iblk1 V c 1 t) (iblk1 V c 2 t) (iblk1 V c 3 t) (iblk1 V c 4 t) (iblk1 V c 5 t) (iblk1 V c 6 t) f).trans ?_
  unfold blockSum
  refine Finset.sum_congr rfl fun r _ => ?_
  have hr : r.val < 5000 := r.isLt
  have hi : 5000 * t.val + r.val < 50000 := by omega
  exact block_entry (iblk1 V c 0 t) (iblk1 V c 1 t) (iblk1 V c 2 t) (iblk1 V c 3 t) (iblk1 V c 4 t) (iblk1 V c 5 t) (iblk1 V c 6 t)
    (V c main_v62) (V c main_v78) (V c main_v94) (V c main_v110) (V c main_arg5) (V c main_arg6) (V c main_arg7)
    r ⟨5000 * t.val + r.val, hi⟩ f
    (fun k => rows1_0 V c t r k ⟨5000 * t.val + r.val, hi⟩ rfl) (fun k => rows1_1 V c t r k ⟨5000 * t.val + r.val, hi⟩ rfl)
    (fun k => rows1_2 V c t r k ⟨5000 * t.val + r.val, hi⟩ rfl) (fun k => rows1_3 V c t r k ⟨5000 * t.val + r.val, hi⟩ rfl)
    (weights1_eq V c t) (bias1_eq V c t) (slope1_eq V c t)

/-- Region 1's output array, when it has run over all ten blocks, holds the ten partial rows of the layer of its input arrays. -/
theorem region1_partials (c : Dev nD) :
    (dat1 (F := Ideal) V c).arrAt 7 cfg1.N
      = partialsT (layerT (F := Ideal) (V c main_v62) (V c main_v78) (V c main_v94) (V c main_v110) (V c main_arg5) (V c main_arg6) (V c main_arg7)) :=
  (dat1 (F := Ideal) V c).arrAt_eq_of_cover 7 _ (fun t _ => written1_eq V c t) outBlocks_cover1

/-- The host's sum of the ten partial rows of an array is the array's pooled row. -/
theorem reduce_partialsT (act : FVec Ideal S50000x128 .f32) :
    Host.reduceAdd (F := Ideal) (partialsT act) (constant (F := Ideal) S_ .f32 0x00000000#32)
        Facts₀.reducesTo_S10x1x128_S1x128_d0 Facts₀.h_S_
      = poolT (F := Ideal) act := by
  funext j
  obtain ⟨a, f, rfl⟩ : ∃ (a : Fin 1) (f : Fin 128), j = ix2 a f := ⟨j 0, j 1, eq_ix2 j⟩
  obtain rfl : a = 0 := Subsingleton.elim _ _
  refine (partials_apply (partialsT act) f).trans (Eq.trans ?_ (poolT_apply act f).symm)
  refine congrArg (fun s => Ideal.ofBits .f32 0x00000000#32 + s) ?_
  exact (Finset.sum_congr rfl fun t _ => partialsT_apply act t f).trans (sum_blocks fun i => act (ix2 i f))

/-- The host's sum of region 1's ten partial rows is the pooled row of the layer of its input arrays. -/
theorem region1_pooled (c : Dev nD) :
    Host.reduceAdd (F := Ideal) ((dat1 (F := Ideal) V c).arrAt 7 cfg1.N) (constant (F := Ideal) S_ .f32 0x00000000#32)
        Facts₀.reducesTo_S10x1x128_S1x128_d0 Facts₀.h_S_
      = poolT (F := Ideal) (layerT (F := Ideal) (V c main_v62) (V c main_v78) (V c main_v94) (V c main_v110) (V c main_arg5) (V c main_arg6) (V c main_arg7)) := by
  rw [region1_partials V c]
  exact reduce_partialsT _

end Cert.RegionValue

end
-- ==== Proof.LibGatherScatter.lean ====
/-
  StableHLO's gather and scatter READ AT AN INDEX, for the dimension numbers that picking rows of a matrix (or entries
  of a vector) by a column of indices, and summing rows into segments named by a column of indices, are written with.

  Throughout, the indices are an array `idx : [E, 1]` of `w`-bit words; entry `e`'s index is `idx[e, 0]` read as a
  SIGNED integer.
  * `rowGather_apply`: the gather of rows of `x : [N, C]` at `idx` is, at `(e, f)`, `x[clamp(idx[e, 0]), f]`, the
    index clamped into `[0, N − 1]`.
  * `nodeGather_apply`: the gather of entries of `x : [N]` at `idx` is, at `e`, `x[clamp(idx[e, 0])]`.
  * `rowScatter_resultIdx` / `rowScatter_resultIdx_eq_some_iff`: the scatter of the rows of updates `[E, C]` into an
    operand `[N, C]` sends update element `(e, f)` to operand element `(idx[e, 0], f)` when `0 ≤ idx[e, 0] < N` (the
    index is NOT clamped) and drops it otherwise; so it lands on `(n, g)` exactly when `idx[e, 0] = n` and `f = g`.
  * `nodeScatter_resultIdx` / `nodeScatter_resultIdx_eq_some_iff`: the same for updates `[E]` into an operand `[N]`.
  The records take their well-formedness proof as a parameter and are reducible, so a structure literal with the same
  lists and any proof of the same conditions is definitionally the record here.
-/
import Idealize.ShloMosaic.Lib.ValueIdx

noncomputable section

namespace Cert.LibGatherScatter

open Idealize.ShloMosaic Idealize.ShloMosaic.ValueIdx

/-! ## `stablehlo.gather` of the rows of a matrix at a column of start indices -/

section RowGather
variable {α : Type}

/-- The dimension numbers of "rows of `x : [N, C]` picked by `idx : [E, 1]`", result `[E, C]`: offset_dims `[1]`,
    collapsed_slice_dims `[0]`, start_index_map `[0]`, index_vector_dim 1, slice_sizes `[1, C]` (one whole row per
    start index). Their conditions `wf` are decided on literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: column `f` of the operand's row `idx[e, 0]`, that index read signed and clamped
    into `[0, N − 1]`. (On axis 0 the operand coordinate is the clamped start, the axis being collapsed; on axis 1 the
    start is 0 and the offset coordinate is `f`.) -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e f) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    have hs : (rowGatherDims N C E wf).start (ix2 e f) idx (1 : Fin 2) = 0 := by
      unfold GatherDims.start
      rw [dif_neg (show (1 : Fin 2) ∉ ([0] : List (Fin 2)) by decide)]
    have ho : (rowGatherDims N C E wf).offCoord (ix2 e f) (1 : Fin 2) = f.val := by
      unfold GatherDims.offCoord
      rw [dif_pos ((GatherDims.mem_sKept _ _).mpr ⟨show (1 : Fin 2) ∉ ([0] : List (Fin 2)) by decide, List.not_mem_nil⟩)]
      rfl
    rw [hs, GatherDims.batchCoord_eq_zero _ _ _ List.not_mem_nil, ho]
    simp only [Nat.zero_add, Nat.add_zero]

end RowGather

/-! ## `stablehlo.gather` of the entries of a vector at a column of start indices -/

section NodeGather
variable {α : Type}

/-- The dimension numbers of "entries of `x : [N]` picked by `idx : [E, 1]`", result `[E]`: offset_dims `[]`,
    collapsed_slice_dims `[0]`, start_index_map `[0]`, index_vector_dim 1, slice_sizes `[1]`. -/
abbrev nodeGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry `idx[e, 0]`, that index read signed and clamped into
    `[0, N − 1]`. -/
theorem nodeGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (nodeGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (nodeGatherDims N E wf).start (ix1 e) idx 0 + (nodeGatherDims N E wf).batchCoord (ix1 e) 0
    + (nodeGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGatherDims N E wf).startIndexMap from List.mem_singleton.mpr rfl)]
  have hsi : (nodeGatherDims N E wf).siIdx (ix1 e) ⟨List.idxOf (0 : Fin 1) (nodeGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end NodeGather

/-! ## `stablehlo.scatter` of rows of updates into the rows of a matrix named by a column of indices -/

section RowScatter

/-- The dimension numbers of "row `e` of the updates `[E, C]` goes to row `idx[e, 0]` of the operand `[N, C]`":
    update_window_dims `[1]`, inserted_window_dims `[0]`, scatter_dims_to_operand_dims `[0]`, index_vector_dim 1. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w) (e : Fin E) (f : Fin C)

/-- On operand axis 0 the window of update `(e, f)` starts at `idx[e, 0]`, read signed and not clamped. -/
theorem rowScatter_start0 :
    (rowScatterDims N C E wf).start (ix2 e f) idx (0 : Fin 2) = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e f)
      ⟨List.idxOf (0 : Fin 2) (rowScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the index map does not name, the window starts at 0. -/
theorem rowScatter_start1 : (rowScatterDims N C E wf).start (ix2 e f) idx (1 : Fin 2) = 0 := by
  unfold ScatterDims.start
  rw [dif_neg (show (1 : Fin 2) ∉ ([0] : List (Fin 2)) by decide)]

/-- Operand axis 0 is an inserted axis: the window coordinate there is 0. -/
theorem rowScatter_window0 : (rowScatterDims N C E wf).window (ix2 e f) (0 : Fin 2) = 0 := by
  unfold ScatterDims.window
  have hk : (0 : Fin 2) ∉ (rowScatterDims N C E wf).sKept :=
    show (0 : Fin 2) ∉ (List.finRange 2).filter (· ∉ ([0] : List (Fin 2))) by decide
  rw [dif_neg hk]

/-- On operand axis 1 the window coordinate of update `(e, f)` is `f`. -/
theorem rowScatter_window1 : (rowScatterDims N C E wf).window (ix2 e f) (1 : Fin 2) = f.val := by
  unfold ScatterDims.window
  have hk : (1 : Fin 2) ∈ (rowScatterDims N C E wf).sKept :=
    show (1 : Fin 2) ∈ (List.finRange 2).filter (· ∉ ([0] : List (Fin 2))) by decide
  rw [dif_pos hk]
  rfl

/-- WHERE UPDATE `(e, f)` LANDS: with `v = idx[e, 0]` read signed, at `(v, f)` when `0 ≤ v < N`; otherwise the
    update is dropped. -/
theorem rowScatter_resultIdx :
    (rowScatterDims N C E wf).resultIdx? (ix2 e f) idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) f)
        else none := by
  unfold ScatterDims.resultIdx?
  by_cases h : 0 ≤ (idx (ix2 e (0 : Fin 1))).toInt ∧ (idx (ix2 e (0 : Fin 1))).toInt < (N : Int)
  · have H : ∀ a : Fin 2, 0 ≤ (rowScatterDims N C E wf).start (ix2 e f) idx a + ((rowScatterDims N C E wf).window (ix2 e f) a : Int) ∧
        (rowScatterDims N C E wf).start (ix2 e f) idx a + ((rowScatterDims N C E wf).window (ix2 e f) a : Int)
          < ((⟨2, ![N, C]⟩ : Shape).size a : Int) := by
      intro a
      match a with
      | ⟨0, _⟩ =>
        show 0 ≤ (rowScatterDims N C E wf).start (ix2 e f) idx (0 : Fin 2) + ((rowScatterDims N C E wf).window (ix2 e f) (0 : Fin 2) : Int) ∧
          (rowScatterDims N C E wf).start (ix2 e f) idx (0 : Fin 2) + ((rowScatterDims N C E wf).window (ix2 e f) (0 : Fin 2) : Int) < (N : Int)
        rw [rowScatter_start0, rowScatter_window0]
        omega
      | ⟨1, _⟩ =>
        show 0 ≤ (rowScatterDims N C E wf).start (ix2 e f) idx (1 : Fin 2) + ((rowScatterDims N C E wf).window (ix2 e f) (1 : Fin 2) : Int) ∧
          (rowScatterDims N C E wf).start (ix2 e f) idx (1 : Fin 2) + ((rowScatterDims N C E wf).window (ix2 e f) (1 : Fin 2) : Int) < (C : Int)
        rw [rowScatter_start1, rowScatter_window1]
        have := f.isLt
        omega
    rw [dif_pos H, dif_pos h]
    congr 1
    funext a
    refine Fin.ext ?_
    match a with
    | ⟨0, _⟩ =>
      show ((rowScatterDims N C E wf).start (ix2 e f) idx (0 : Fin 2) + ((rowScatterDims N C E wf).window (ix2 e f) (0 : Fin 2) : Int)).toNat
        = (idx (ix2 e (0 : Fin 1))).toInt.toNat
      rw [rowScatter_start0, rowScatter_window0]
      simp
    | ⟨1, _⟩ =>
      show ((rowScatterDims N C E wf).start (ix2 e f) idx (1 : Fin 2) + ((rowScatterDims N C E wf).window (ix2 e f) (1 : Fin 2) : Int)).toNat
        = f.val
      rw [rowScatter_start1, rowScatter_window1]
      simp
  · rw [dif_neg h, dif_neg]
    intro H
    apply h
    have := H (0 : Fin 2)
    rw [rowScatter_start0, rowScatter_window0] at this
    have h2 : (idx (ix2 e (0 : Fin 1))).toInt + ((0 : Nat) : Int) < (N : Int) := this.2
    omega

/-- Update `(e, f)` lands on operand element `(n, g)` exactly when its index `idx[e, 0]`, read signed, is `n` and
    `f = g`. -/
theorem rowScatter_resultIdx_eq_some_iff (n : Fin N) (g : Fin C) :
    (rowScatterDims N C E wf).resultIdx? (ix2 e f) idx = some (ix2 n g)
      ↔ (idx (ix2 e (0 : Fin 1))).toInt = (n.val : Int) ∧ f = g := by
  rw [rowScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 2))
      have h1 : f = g := congrFun H' (1 : Fin 2)
      exact ⟨by omega, h1⟩
    · rintro ⟨hv, rfl⟩
      have : (⟨(idx (ix2 e (0 : Fin 1))).toInt.toNat, by omega⟩ : Fin N) = n := Fin.ext (by show (idx (ix2 e (0 : Fin 1))).toInt.toNat = n.val; omega)
      rw [this]
  · rw [dif_neg h]
    constructor
    · intro H; cases H
    · rintro ⟨hv, _⟩
      exact absurd ⟨by omega, by have := n.isLt; omega⟩ h

end RowScatter

/-! ## `stablehlo.scatter` of a vector of updates into the entries of a vector named by a column of indices -/

section NodeScatter

/-- The dimension numbers of "entry `e` of the updates `[E]` goes to entry `idx[e, 0]` of the operand `[N]`":
    update_window_dims `[]`, inserted_window_dims `[0]`, scatter_dims_to_operand_dims `[0]`, index_vector_dim 1. -/
abbrev nodeScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at `idx[e, 0]`, read signed and not clamped. -/
theorem nodeScatter_start0 :
    (nodeScatterDims N E wf).start (ix1 e) idx (0 : Fin 1) = (idx (ix2 e (0 : Fin 1))).toInt := by
  unfold ScatterDims.start
  rw [dif_pos (show (0 : Fin 1) ∈ (nodeScatterDims N E wf).scatterDimsToOperandDims from List.mem_singleton.mpr rfl)]
  have hsi : (nodeScatterDims N E wf).siIdx (ix1 e)
      ⟨List.idxOf (0 : Fin 1) (nodeScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted axis: the window coordinate there is 0. -/
theorem nodeScatter_window0 : (nodeScatterDims N E wf).window (ix1 e) (0 : Fin 1) = 0 := by
  unfold ScatterDims.window
  have hk : (0 : Fin 1) ∉ (nodeScatterDims N E wf).sKept :=
    show (0 : Fin 1) ∉ (List.finRange 1).filter (· ∉ ([0] : List (Fin 1))) by decide
  rw [dif_neg hk]

/-- WHERE UPDATE `e` LANDS: with `v = idx[e, 0]` read signed, at `v` when `0 ≤ v < N`; otherwise the update is
    dropped. -/
theorem nodeScatter_resultIdx :
    (nodeScatterDims N E wf).resultIdx? (ix1 e) idx
      = if h : 0 ≤ (idx (ix2 e (0 : Fin 1))).toInt ∧ (idx (ix2 e (0 : Fin 1))).toInt < (N : Int) then
          some (ix1 (⟨(idx (ix2 e (0 : Fin 1))).toInt.toNat, by omega⟩ : Fin N))
        else none := by
  unfold ScatterDims.resultIdx?
  by_cases h : 0 ≤ (idx (ix2 e (0 : Fin 1))).toInt ∧ (idx (ix2 e (0 : Fin 1))).toInt < (N : Int)
  · have H : ∀ a : Fin 1, 0 ≤ (nodeScatterDims N E wf).start (ix1 e) idx a + ((nodeScatterDims N E wf).window (ix1 e) a : Int) ∧
        (nodeScatterDims N E wf).start (ix1 e) idx a + ((nodeScatterDims N E wf).window (ix1 e) a : Int)
          < ((⟨1, ![N]⟩ : Shape).size a : Int) := by
      intro a
      obtain rfl : a = 0 := Subsingleton.elim _ _
      show 0 ≤ (nodeScatterDims N E wf).start (ix1 e) idx (0 : Fin 1) + ((nodeScatterDims N E wf).window (ix1 e) (0 : Fin 1) : Int) ∧
        (nodeScatterDims N E wf).start (ix1 e) idx (0 : Fin 1) + ((nodeScatterDims N E wf).window (ix1 e) (0 : Fin 1) : Int) < (N : Int)
      rw [nodeScatter_start0, nodeScatter_window0]
      omega
    rw [dif_pos H, dif_pos h]
    congr 1
    funext a
    obtain rfl : a = 0 := Subsingleton.elim _ _
    refine Fin.ext ?_
    show ((nodeScatterDims N E wf).start (ix1 e) idx (0 : Fin 1) + ((nodeScatterDims N E wf).window (ix1 e) (0 : Fin 1) : Int)).toNat
      = (idx (ix2 e (0 : Fin 1))).toInt.toNat
    rw [nodeScatter_start0, nodeScatter_window0]
    simp
  · rw [dif_neg h, dif_neg]
    intro H
    apply h
    have := H (0 : Fin 1)
    rw [nodeScatter_start0, nodeScatter_window0] at this
    have h2 : (idx (ix2 e (0 : Fin 1))).toInt + ((0 : Nat) : Int) < (N : Int) := this.2
    omega

/-- Update `e` lands on operand entry `n` exactly when its index `idx[e, 0]`, read signed, is `n`. -/
theorem nodeScatter_resultIdx_eq_some_iff (n : Fin N) :
    (nodeScatterDims N E wf).resultIdx? (ix1 e) idx = some (ix1 n)
      ↔ (idx (ix2 e (0 : Fin 1))).toInt = (n.val : Int) := by
  rw [nodeScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 1))
      omega
    · intro hv
      have : (⟨(idx (ix2 e (0 : Fin 1))).toInt.toNat, by omega⟩ : Fin N) = n :=
        Fin.ext (by show (idx (ix2 e (0 : Fin 1))).toInt.toNat = n.val; omega)
      rw [this]
  · rw [dif_neg h]
    constructor
    · intro H; cases H
    · intro hv
      exact absurd ⟨by omega, by have := n.isLt; omega⟩ h

end NodeScatter

end Cert.LibGatherScatter

end
-- ==== Proof.Consts.lean ====
/-
  The one float constant whose value the proof uses beside zero: the pattern of `1.0` denotes the real one.
-/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

end Cert.Consts

end
-- ==== Proof.HopIndex.lean ====
/-
  The pieces of the hop law read at an index: the degree normalizer `dinv n` is a non-negative real (`rsqrt` of
  something at least one, or zero); a vector repeated along the feature axis reads its entry; the wrap-around of negative
  indices leaves a non-negative index alone; a gather of node rows reads the row its clamped index names; a scatter of
  edge rows lands update `(j, f)` on `(n, f)` exactly when edge `j`'s target, read signed, is `n`.
-/
import proofs.«177928_j41618233098577_2_alg».proof.Proof.Spec
import proofs.«177928_j41618233098577_2_alg».proof.Proof.LibGatherScatter
import proofs.«177928_j41618233098577_2_alg».proof.Proof.Consts
import Idealize.ShloMosaic.Lib.ValueIdx
import Idealize.ShloMosaic.Lib.Pipeline.Value
import Idealize.ShloMosaic.PureOps.Ideal.Laws

noncomputable section

namespace Cert.HopIndex

open Idealize.ShloMosaic Idealize.ShloMosaic.ValueIdx Cert.ReferenceIdeal Cert.ReferenceIdeal.Gen Cert.Spec Cert.LibGatherScatter

/-! ## Extended reals -/

/-- A non-negative real factor distributes over a finite sum of extended reals. -/
theorem nonneg_mul_sum {ι : Type} (s : Finset ι) (d : EReal) (h0 : 0 ≤ d) (ht : d ≠ ⊤) (t : ι → EReal) :
    d * ∑ j ∈ s, t j = ∑ j ∈ s, d * t j := by
  classical
  induction s using Finset.induction_on with
  | empty => simp
  | insert a s ha ih =>
    rw [Finset.sum_insert ha, Finset.sum_insert ha, EReal.left_distrib_of_nonneg_of_ne_top h0 ht, ih]

/-- The reciprocal square root of something at least one is a non-negative real. -/
theorem rsqrt_of_one_le {z : EReal} (h1 : 1 ≤ z) : 0 ≤ Ideal.rsqrt z ∧ Ideal.rsqrt z ≠ ⊤ := by
  induction z using EReal.rec with
  | bot => exact absurd (le_bot_iff.mp h1) (by simpa using EReal.coe_ne_bot (1 : ℝ))
  | top => exact ⟨by rw [Ideal.rsqrt_top], by rw [Ideal.rsqrt_top]; exact EReal.zero_ne_top⟩
  | coe r =>
    have hr : (1 : ℝ) ≤ r := by exact_mod_cast h1
    rw [Ideal.rsqrt_coe, if_neg (not_lt.mpr (by linarith)), if_neg (by intro h; rw [h] at hr; norm_num at hr)]
    exact ⟨EReal.coe_nonneg.mpr (inv_nonneg.mpr (Real.sqrt_nonneg r)), EReal.coe_ne_top _⟩

/-! ## The normalizer -/

/-- A scalar repeated over the nodes reads the scalar. -/
theorem splat_apply (b : BitVec 32) (i : S50000.Idx) :
    broadcastInDim S50000 ![] bcast_S_S50000 (constant (F := Ideal) S_ .f32 b) i = Ideal.ofBits .f32 b := rfl

/-- The same through the identity conversion the outlined select applies to its scalar. -/
theorem splatId_apply (b : BitVec 32) (i : S50000.Idx) :
    broadcastInDim S50000 ![] bcast_S_S50000 (id (constant (F := Ideal) S_ .f32 b)) i = Ideal.ofBits .f32 b := rfl

/-- The host's reciprocal square root at an index. -/
theorem hostRsqrt_apply {s : Shape} (v : FVec Ideal s .f32) (i : s.Idx) : Host.rsqrt v i = Ideal.rsqrt (v i) := rfl

/-- `dinv n` is a non-negative real: `rsqrt (max (deg n) 1)`, or `0`. -/
theorem dinv_nonneg_ne_top (e : (⟨S2x800000, .i32⟩ : BufTy).Contents (Elt Ideal)) (n : Fin 50000) :
    0 ≤ dinvOf (F := Ideal) e (ix1 n) ∧ dinvOf (F := Ideal) e (ix1 n) ≠ ⊤ := by
  unfold dinvOf
  rw [select_apply]
  generalize cmpf (F := Ideal) (s := S50000) (φ := .f32) .ogt (degOf (F := Ideal) e) _ (ix1 n) = cbit
  rcases BitVec.eq_zero_or_eq_one cbit with rfl | rfl
  · rw [select_zero, splatId_apply, Ideal.ofBits_zero_f32]
    exact ⟨le_refl _, EReal.zero_ne_top⟩
  · rw [select_one, hostRsqrt_apply, maximumf_apply, splat_apply, Cert.Consts.ofBits_one]
    exact rsqrt_of_one_le (le_max_right _ _)

/-! ## Layout and index operations at an index -/

/-- `dinv` repeated along the feature axis reads `dinv n` at `(n, f)`. -/
theorem dinvB_apply (e : (⟨S2x800000, .i32⟩ : BufTy).Contents (Elt Ideal)) (n : Fin 50000) (f : Fin 128) :
    dinvB (F := Ideal) e (ix2 n f) = dinvOf (F := Ideal) e (ix1 n) := by
  unfold dinvB
  generalize dinvOf (F := Ideal) e = y
  rw [broadcastInDim_apply _ Cert.KernelIdeal.Facts₀.bcast_S50000x1_S50000x128_0_1 _ (ix2 n f) (ix2 n (0 : Fin 1)) (fun a => match a with
    | ⟨0, _⟩ => by show n.val = if (50000 : Nat) = 1 then 0 else n.val; rw [if_neg (by decide)]
    | ⟨1, _⟩ => by show 0 = if (1 : Nat) = 1 then 0 else f.val; rw [if_pos rfl])]
  exact broadcastInDim_apply _ Cert.KernelIdeal.Facts₀.bcast_S50000_S50000x1_0 y (ix2 n (0 : Fin 1)) (ix1 n) (fun a => match a with
    | ⟨0, _⟩ => by show n.val = if (50000 : Nat) = 1 then 0 else n.val; rw [if_neg (by decide)])

/-- An edge vector repeated along the feature axis reads entry `j` at `(j, f)`. -/
theorem edgeB_apply (v : (⟨S800000, .f32⟩ : BufTy).Contents (Elt Ideal)) (j : Fin 800000) (f : Fin 128) :
    broadcastInDim S800000x128 ![0, 1] bcast_S800000x1_S800000x128_0_1
        (broadcastInDim S800000x1 ![0] bcast_S800000_S800000x1_0 v) (ix2 j f) = v (ix1 j) := by
  rw [broadcastInDim_apply _ bcast_S800000x1_S800000x128_0_1 _ (ix2 j f) (ix2 j (0 : Fin 1)) (fun a => match a with
    | ⟨0, _⟩ => by show j.val = if (800000 : Nat) = 1 then 0 else j.val; rw [if_neg (by decide)]
    | ⟨1, _⟩ => by show 0 = if (1 : Nat) = 1 then 0 else f.val; rw [if_pos rfl])]
  exact broadcastInDim_apply _ bcast_S800000_S800000x1_0 v (ix2 j (0 : Fin 1)) (ix1 j) (fun a => match a with
    | ⟨0, _⟩ => by show j.val = if (800000 : Nat) = 1 then 0 else j.val; rw [if_neg (by decide)])

/-- An index vector as a one-column array reads entry `j` at `(j, 0)`. -/
theorem idxCol_apply (v : (⟨S800000, .i32⟩ : BufTy).Contents (Elt Ideal)) (j : Fin 800000) :
    idxCol (F := Ideal) v (ix2 j (0 : Fin 1)) = v (ix1 j) := by
  unfold idxCol
  exact broadcastInDim_apply _ bcast_S800000_S800000x1_0 v (ix2 j (0 : Fin 1)) (ix1 j) (fun a => match a with
    | ⟨0, _⟩ => by show j.val = if (800000 : Nat) = 1 then 0 else j.val; rw [if_neg (by decide)])

/-- The wrap-around of negative indices leaves a non-negative index alone. -/
theorem wrapIdx_of_nonneg (v : (⟨S800000, .i32⟩ : BufTy).Contents (Elt Ideal)) (j : Fin 800000)
    (h0 : 0 ≤ (v (ix1 j)).toInt) : wrapIdx (F := Ideal) v (ix1 j) = v (ix1 j) := by
  unfold wrapIdx
  rw [select_apply]
  have hc : cmpi .slt v (broadcastInDim S800000 ![] bcast_S_S800000 (constantI S_ 32 0#32)) (ix1 j) = 0#1 := by
    show BitVec.ofBool ((v (ix1 j)).slt 0#32) = 0#1
    have : (v (ix1 j)).slt 0#32 = false := by
      rw [BitVec.slt]
      exact decide_eq_false (by simpa using h0)
    rw [this]; rfl
  rw [hc, select_zero]

/-- The node index a gather reads for edge `j`: the index word read signed and clamped into `[0, 49999]`. -/
def clampIdx (idx : (⟨S800000x1, .i32⟩ : BufTy).Contents (Elt Ideal)) (j : Fin 800000) : Fin 50000 :=
  ⟨min (idx (ix2 j (0 : Fin 1))).toInt.toNat (50000 - 1), by omega⟩

/-- A gather of node rows at `(j, f)` reads the row the clamped index names. -/
theorem gatherRows_apply (x : (⟨S50000x128, .f32⟩ : BufTy).Contents (Elt Ideal)) (idx : (⟨S800000x1, .i32⟩ : BufTy).Contents (Elt Ideal))
    (j : Fin 800000) (f : Fin 128) :
    Host.gather gather_S50000x128_S800000x1_S800000x128_1_0_n_n_0_1_1128 x idx (ix2 j f) = x (ix2 (clampIdx idx j) f) :=
  rowGather_apply (N := 50000) (C := 128) (E := 800000) (by decide)
    Cert.ReferenceIdeal.Facts₀.gather_S50000x128_S800000x1_S800000x128_1_0_n_n_0_1_1128_wf x idx j f

/-- A gather of node entries at `j` reads the entry the clamped index names. -/
theorem gatherNodes_apply (x : (⟨S50000, .f32⟩ : BufTy).Contents (Elt Ideal)) (idx : (⟨S800000x1, .i32⟩ : BufTy).Contents (Elt Ideal))
    (j : Fin 800000) :
    Host.gather gather_S50000_S800000x1_S800000_n_0_n_n_0_1_1 x idx (ix1 j) = x (ix1 (clampIdx idx j)) :=
  nodeGather_apply (N := 50000) (E := 800000) (by decide)
    Cert.ReferenceIdeal.Facts₀.gather_S50000_S800000x1_S800000_n_0_n_n_0_1_1_wf x idx j

/-- A scatter of edge rows sends update `(j, f)` to `(n, g)` exactly when the index word, read signed, is `n` and `f = g`. -/
theorem scatterRows_iff (idx : (⟨S800000x1, .i32⟩ : BufTy).Contents (Elt Ideal)) (j : Fin 800000) (f : Fin 128) (n : Fin 50000) (g : Fin 128) :
    scatter_S50000x128_S800000x1_S800000x128_1_0_0_1.resultIdx? (ix2 j f) idx = some (ix2 n g)
      ↔ (idx (ix2 j (0 : Fin 1))).toInt = (n.val : Int) ∧ f = g :=
  rowScatter_resultIdx_eq_some_iff (N := 50000) (C := 128) (E := 800000)
    Cert.ReferenceIdeal.Facts₀.scatter_S50000x128_S800000x1_S800000x128_1_0_0_1_wf idx j f n g

end Cert.HopIndex

end
-- ==== Proof.LibScatterAdd.lean ====
/-
  The accumulating float scatter at the ideal instance READ AT AN INDEX, for the dimension numbers a sum of rows (or of
  entries) into segments named by a column of indices is written with.  In extended reals the scatter-add is, at each
  operand element, that element plus the sum of the update elements whose result index is the element.  Re-indexing
  that sum by the update's coordinates gives: at `(n, g)` the operand's element plus the sum of the updates' elements
  `(e, g)` over the rows `e` with `idx[e, 0] = n` (`rowScatterAdd_apply`), and for a vector of updates, at `n` the
  operand's entry plus the sum of the updates' entries `e` with `idx[e, 0] = n` (`nodeScatterAdd_apply`); the index
  is read signed and not clamped.
-/
import proofs.«177928_j41618233098577_2_alg».proof.Proof.LibGatherScatter
import Idealize.ShloMosaic.Lib.ValueIdx

noncomputable section

namespace Cert.LibScatterAdd

open Idealize.ShloMosaic Idealize.ShloMosaic.ValueIdx Cert.LibGatherScatter
open scoped BigOperators

variable {φ : FTy}

/-- THE ROW SCATTER-ADD READ AT `(n, g)`, in extended reals: the operand's element plus the sum, over the updates' rows
    `e` whose index `idx[e, 0]` (read signed) is `n`, of the update's element `(e, g)`. -/
theorem rowScatterAdd_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (rowScatterDims N C E wf) x idx upd (ix2 n g)
      = x (ix2 n g) + ∑ e ∈ Finset.univ.filter (fun e : Fin E => (idx (ix2 e (0 : Fin 1))).toInt = (n.val : Int)),
          upd (ix2 e g) := by
  show x (ix2 n g) + ∑ j ∈ Finset.univ.filter
    (fun j => (rowScatterDims N C E wf).resultIdx? j idx = some (ix2 n g)), upd j = _
  congr 1
  rw [Finset.sum_filter, sum_idx2, Finset.sum_filter]
  refine Finset.sum_congr rfl fun e _ => ?_
  simp only [rowScatter_resultIdx_eq_some_iff]
  by_cases hv : (idx (ix2 e (0 : Fin 1))).toInt = (n.val : Int)
  · simp only [hv, true_and, if_true]
    rw [Finset.sum_ite_eq' Finset.univ g (fun f => upd (ix2 e f))]
    simp
  · simp only [hv, false_and, if_false]
    exact Finset.sum_const_zero

/-- THE VECTOR SCATTER-ADD READ AT `n`, in extended reals: the operand's entry plus the sum of the updates' entries
    `e` whose index `idx[e, 0]` (read signed) is `n`. -/
theorem nodeScatterAdd_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (nodeScatterDims N E wf) x idx upd (ix1 n)
      = x (ix1 n) + ∑ e ∈ Finset.univ.filter (fun e : Fin E => (idx (ix2 e (0 : Fin 1))).toInt = (n.val : Int)),
          upd (ix1 e) := by
  show x (ix1 n) + ∑ j ∈ Finset.univ.filter
    (fun j => (nodeScatterDims N E wf).resultIdx? j idx = some (ix1 n)), upd j = _
  congr 1
  rw [Finset.sum_filter, Finset.sum_filter]
  have hsum : ∀ F : (⟨1, ![E]⟩ : Shape).Idx → EReal, ∑ j, F j = ∑ e : Fin E, F (ix1 e) := by
    intro F
    refine (Fintype.sum_equiv (⟨fun j => j 0, fun e => ix1 e, fun j => (eq_ix1 j).symm, fun _ => rfl⟩ :
      (⟨1, ![E]⟩ : Shape).Idx ≃ Fin E) _ _ fun j => ?_)
    exact congrArg F (eq_ix1 j)
  rw [hsum]
  refine Finset.sum_congr rfl fun e _ => ?_
  simp only [nodeScatter_resultIdx_eq_some_iff]

end Cert.LibScatterAdd

end
-- ==== Proof.HopLaw.lean ====
/-
  The law that joins the two arrangements of a propagation hop.  At target node `n` and feature `f` the reference adds,
  over the edges `j` whose target is `n`, the terms `(dinv[row j] · dinv[col j]) · h[col j, f]`; the kernel multiplies
  `dinv[n]` into the sum, over the same edges, of `dinv[col j] · h[col j, f]`.  On such an edge `row j = n` (the
  scatter reads the target signed and drops an edge whose target is outside `[0, 50000)`; a target inside is
  non-negative, so the gather's wrap-around of negative indices and its clamp leave it alone).  The two sides are then
  equal because `dinv[n]` is a non-negative real — `rsqrt` of something at least one, or zero — and a non-negative real
  factor distributes over a sum of extended reals, whatever the summands are; no finiteness of `h` is used.

  The law is first proved over NAMED pieces (`hop_core`: a vector `D` of non-negative reals, index arrays, an array of
  edge weights, each known only through what it reads at an index), where both sides are sums over the edges; the two
  hops are then an instance of it.
-/
import proofs.«177928_j41618233098577_2_alg».proof.Proof.Spec
import proofs.«177928_j41618233098577_2_alg».proof.Proof.HopIndex
import proofs.«177928_j41618233098577_2_alg».proof.Proof.LibScatterAdd
import Idealize.ShloMosaic.Lib.ValueIdx
import Idealize.ShloMosaic.Lib.Pipeline.Value
import Idealize.ShloMosaic.PureOps.Ideal.Laws

noncomputable section

namespace Cert.HopLaw

open Idealize.ShloMosaic Idealize.ShloMosaic.ValueIdx Cert.ReferenceIdeal Cert.ReferenceIdeal.Gen Cert.Spec Cert.HopIndex
open scoped BigOperators

/-! ## The accumulating scatter of edge rows and the zero array, read at an index -/

/-- The scatter-add of edge rows at `(n, g)`, in extended reals: the operand's element plus the sum, over the edges `j`
    whose index word read signed is `n`, of the update's element `(j, g)`. -/
theorem scatterRowsAdd_apply (x : FVec Ideal S50000x128 .f32) (idx : IVec S800000x1 32) (upd : FVec Ideal S800000x128 .f32)
    (n : Fin 50000) (g : Fin 128) :
    Host.scatterAdd scatter_S50000x128_S800000x1_S800000x128_1_0_0_1 x idx upd (ix2 n g)
      = x (ix2 n g) + ∑ j ∈ Finset.univ.filter (fun j : Fin 800000 => (idx (ix2 j (0 : Fin 1))).toInt = (n.val : Int)),
          upd (ix2 j g) :=
  Cert.LibScatterAdd.rowScatterAdd_apply (N := 50000) (C := 128) (E := 800000)
    Cert.ReferenceIdeal.Facts₀.scatter_S50000x128_S800000x1_S800000x128_1_0_0_1_wf x idx upd n g

/-- The zero array reads `0`. -/
theorem zeroB_apply (i : S50000x128.Idx) :
    broadcastInDim S50000x128 ![] bcast_S_S50000x128 (constant (F := Ideal) S_ .f32 0x00000000#32) i = (0 : EReal) :=
  Ideal.ofBits_zero_f32

/-! ## The law over named pieces -/

/-- The law with the pieces named: `D` a vector of non-negative reals, `DB` its repetition along the features, `Z` a
    zero array, `R` the edges' targets, `Rw` and `Cw` the (wrapped) targets and sources the gathers read, `NB` the
    edge weights `D[target] · D[source]` repeated along the features, where on an edge whose target read signed is `n`
    the gather's clamped target is `n` too. Then scaling by `D` before the gather and after the accumulation is
    accumulating the rows scaled by the edge weights: at `(n, f)` both are `Σ D[n] · D[source j] · h[source j, f]` over the
    edges `j` into `n`, the factor `D[n]` — a non-negative real — taken into the sum. -/
theorem hop_core (D : FVec Ideal S50000 .f32) (hD : ∀ n : Fin 50000, 0 ≤ D (ix1 n) ∧ D (ix1 n) ≠ ⊤)
    (DB : FVec Ideal S50000x128 .f32) (hDB : ∀ (n : Fin 50000) (f : Fin 128), DB (ix2 n f) = D (ix1 n))
    (Z : FVec Ideal S50000x128 .f32) (hZ : ∀ i, Z i = (0 : EReal))
    (R Rw Cw : IVec S800000x1 32)
    (hRw : ∀ (j : Fin 800000) (n : Fin 50000), (R (ix2 j (0 : Fin 1))).toInt = (n.val : Int) → clampIdx Rw j = n)
    (NB : FVec Ideal S800000x128 .f32)
    (hNB : ∀ (j : Fin 800000) (f : Fin 128), NB (ix2 j f) = D (ix1 (clampIdx Rw j)) * D (ix1 (clampIdx Cw j)))
    (h : FVec Ideal S50000x128 .f32) :
    mulf DB (Host.scatterAdd scatter_S50000x128_S800000x1_S800000x128_1_0_0_1 Z R
        (Host.gather gather_S50000x128_S800000x1_S800000x128_1_0_n_n_0_1_1128 (mulf DB h) Cw))
      = Host.scatterAdd scatter_S50000x128_S800000x1_S800000x128_1_0_0_1 Z R
        (mulf NB (Host.gather gather_S50000x128_S800000x1_S800000x128_1_0_n_n_0_1_1128 h Cw)) := by
  funext i
  obtain ⟨n, f, rfl⟩ : ∃ (n : Fin 50000) (f : Fin 128), i = ix2 n f := ⟨i 0, i 1, eq_ix2 i⟩
  obtain ⟨hd0, hdt⟩ := hD n
  rw [mulf_apply, hDB, scatterRowsAdd_apply, scatterRowsAdd_apply, hZ, zero_add, zero_add, nonneg_mul_sum _ _ hd0 hdt]
  refine Finset.sum_congr rfl fun j hj => ?_
  have hrow := (Finset.mem_filter.mp hj).2
  rw [mulf_apply, hNB, gatherRows_apply, gatherRows_apply, mulf_apply, hDB, hRw j n hrow]
  exact (mul_assoc _ _ _).symm

/-! ## The law -/

/-- On an edge whose target, read signed, is the node `n`, the wrapped target a gather reads is `n` too: `n` is
    non-negative, so the wrap-around leaves it alone, and below `50000`, so the clamp does. -/
theorem clampIdx_wrap_row (e : (⟨S2x800000, .i32⟩ : BufTy).Contents (Elt Ideal)) (j : Fin 800000) (n : Fin 50000)
    (hrow : (idxCol (F := Ideal) (rowOf (F := Ideal) e) (ix2 j (0 : Fin 1))).toInt = (n.val : Int)) :
    clampIdx (idxCol (F := Ideal) (wrapIdx (F := Ideal) (rowOf (F := Ideal) e))) j = n := by
  rw [idxCol_apply] at hrow
  apply Fin.ext
  show min ((idxCol (F := Ideal) (wrapIdx (F := Ideal) (rowOf (F := Ideal) e))) (ix2 j (0 : Fin 1))).toInt.toNat (50000 - 1) = n.val
  rw [idxCol_apply, wrapIdx_of_nonneg _ _ (by rw [hrow]; exact Int.natCast_nonneg _), hrow]
  have := n.isLt
  omega

/-- The reference's edge weights repeated along the features read `dinv[target] · dinv[source]` at `(j, f)`, the two
    nodes the ones the gathers' clamped indices name. -/
theorem normB_apply (e : (⟨S2x800000, .i32⟩ : BufTy).Contents (Elt Ideal)) (j : Fin 800000) (f : Fin 128) :
    broadcastInDim S800000x128 ![0, 1] bcast_S800000x1_S800000x128_0_1
        (broadcastInDim S800000x1 ![0] bcast_S800000_S800000x1_0 (normOf (F := Ideal) e)) (ix2 j f)
      = dinvOf (F := Ideal) e (ix1 (clampIdx (idxCol (F := Ideal) (wrapIdx (F := Ideal) (rowOf (F := Ideal) e))) j))
        * dinvOf (F := Ideal) e (ix1 (clampIdx (idxCol (F := Ideal) (wrapIdx (F := Ideal) (colOf (F := Ideal) e))) j)) := by
  rw [edgeB_apply]
  unfold normOf
  rw [mulf_apply, gatherNodes_apply, gatherNodes_apply]

/-- The kernel's hop and the reference's hop are one function of the node features. -/
theorem hopK_eq_hopR (e : (⟨S2x800000, .i32⟩ : BufTy).Contents (Elt Ideal)) (h : (⟨S50000x128, .f32⟩ : BufTy).Contents (Elt Ideal)) :
    hopK (F := Ideal) e h = hopR (F := Ideal) e h := by
  unfold hopK hopR
  exact hop_core (dinvOf (F := Ideal) e) (dinv_nonneg_ne_top e) (dinvB (F := Ideal) e) (dinvB_apply e) _ zeroB_apply
    (idxCol (F := Ideal) (rowOf (F := Ideal) e)) (idxCol (F := Ideal) (wrapIdx (F := Ideal) (rowOf (F := Ideal) e)))
    (idxCol (F := Ideal) (wrapIdx (F := Ideal) (colOf (F := Ideal) e))) (clampIdx_wrap_row e) _ (normB_apply e) h

end Cert.HopLaw

end
-- ==== Proof.KernelValue.lean ====
/-
  The kernel program's result as a function of its argument arrays.  @main is five stretches of host operations around
  two pipelined regions.  Walking the buffer contents from the launch to the return: the first two stretches leave the
  degree normalizer `dinv` and the edge targets and sources; the third leaves the three hops `hopK` of `x`; region 0
  leaves the first layer `A = convK e x W1 b1 a1`; the fourth stretch leaves the three hops of `A`; region 1 leaves ten
  partial sums of the second layer, which the last stretch adds up, multiplies by `Wout` and shifts by `bout`.  The hop
  law then turns every `hopK` into the reference's `hopR`, and the result is the reference's network `netR`.
-/
import proofs.«177928_j41618233098577_2_alg».proof.Proof.Gen.KernelIdeal.Frame
import proofs.«177928_j41618233098577_2_alg».proof.Proof.Spec
import proofs.«177928_j41618233098577_2_alg».proof.Proof.KernelHost
import proofs.«177928_j41618233098577_2_alg».proof.Proof.RegionValue
import proofs.«177928_j41618233098577_2_alg».proof.Proof.HopLaw

set_option maxRecDepth 16384

noncomputable section

namespace Cert.KernelValue

open Idealize.ShloMosaic Idealize.ShloMosaic.TcCoe Idealize.ShloMosaic.StableHlo
open Cert.KernelIdeal Cert.KernelIdeal.Gen Cert.Spec Cert.KernelHost

variable (m : (ℓ : Loc nD τ sig) → Buf (Elt Ideal) ℓ) (ρ : Dev nD → PrngReg) (c : Dev nD)

/-- With the hop law, a layer over the kernel's hops is the layer over the reference's. -/
theorem convK_eq_convR (e : (⟨S2x800000, .i32⟩ : BufTy).Contents (Elt Ideal)) (x : (⟨S50000x128, .f32⟩ : BufTy).Contents (Elt Ideal))
    (W : (⟨S4x128x128, .f32⟩ : BufTy).Contents (Elt Ideal)) (b : (⟨S128, .f32⟩ : BufTy).Contents (Elt Ideal))
    (a : (⟨S1, .f32⟩ : BufTy).Contents (Elt Ideal)) : convK (F := Ideal) e x W b a = convR (F := Ideal) e x W b a := by
  unfold convK convR
  rw [Cert.HopLaw.hopK_eq_hopR e x, Cert.HopLaw.hopK_eq_hopR e (hopR e x), Cert.HopLaw.hopK_eq_hopR e (hopR e (hopR e x))]

/-! ## The contents at each boundary -/

/-- At launch a buffer holds the launch memory. -/
theorem W0_eq (b : Ref sig .tc) : W0 m ρ c (Proc.devRef .tc b) = m ((c : Thread nD τ).loc b) := rfl

/-- After the first two stretches: the normalizer and the edge targets and sources. -/
theorem W2_dinv : W2 m ρ c (Proc.devRef .tc main_v13) = dinvOf (F := Ideal) (m ((c : Thread nD τ).loc main_arg1)) :=
  (stretch0 (W0 m ρ c)).1
theorem W2_row : W2 m ρ c (Proc.devRef .tc main_v1) = rowOf (F := Ideal) (m ((c : Thread nD τ).loc main_arg1)) :=
  (stretch0 (W0 m ρ c)).2.1
theorem W2_col : W2 m ρ c (Proc.devRef .tc main_v3) = colOf (F := Ideal) (m ((c : Thread nD τ).loc main_arg1)) :=
  (stretch0 (W0 m ρ c)).2.2

/-- A buffer the first two stretches do not write holds the launch memory. -/
theorem W2_keep (r : Ref sig .tc) (h0 : r ∉ written0) (h1 : r ∉ written0_1) :
    W2 m ρ c (Proc.devRef .tc r) = m ((c : Thread nD τ).loc r) :=
  (keep0_1 _ r h1).trans (keep0 _ r h0)

/-- A buffer the first three stretches do not write holds the launch memory. -/
theorem W3_keep (r : Ref sig .tc) (h0 : r ∉ written0) (h1 : r ∉ written0_1) (h2 : r ∉ written0_2) :
    W3 m ρ c (Proc.devRef .tc r) = m ((c : Thread nD τ).loc r) :=
  (keep0_2 _ r h2).trans (W2_keep m ρ c r h0 h1)

/-- After the third stretch: the three hops of `x`. -/
theorem W3_hops :
    W3 m ρ c (Proc.devRef .tc main_v29) = hopK (F := Ideal) (m ((c : Thread nD τ).loc main_arg1)) (m ((c : Thread nD τ).loc main_arg0))
    ∧ W3 m ρ c (Proc.devRef .tc main_v45) = hopK (F := Ideal) (m ((c : Thread nD τ).loc main_arg1))
        (hopK (F := Ideal) (m ((c : Thread nD τ).loc main_arg1)) (m ((c : Thread nD τ).loc main_arg0)))
    ∧ W3 m ρ c (Proc.devRef .tc main_v61) = hopK (F := Ideal) (m ((c : Thread nD τ).loc main_arg1))
        (hopK (F := Ideal) (m ((c : Thread nD τ).loc main_arg1)) (hopK (F := Ideal) (m ((c : Thread nD τ).loc main_arg1)) (m ((c : Thread nD τ).loc main_arg0)))) := by
  have h := stretchHops0 (W2 m ρ c) (m ((c : Thread nD τ).loc main_arg1)) (W2_dinv m ρ c) (W2_row m ρ c) (W2_col m ρ c)
  rw [W2_keep m ρ c main_arg0 (by decide) (by decide)] at h
  exact h

/-- After region 0: the first layer. -/
theorem W4_layer :
    W4 m ρ c (Proc.devRef .tc main_v62) = convK (F := Ideal) (m ((c : Thread nD τ).loc main_arg1)) (m ((c : Thread nD τ).loc main_arg0))
      (m ((c : Thread nD τ).loc main_arg2)) (m ((c : Thread nD τ).loc main_arg3)) (m ((c : Thread nD τ).loc main_arg4)) := by
  refine (W4_arr m ρ c 7).trans ?_
  refine (Cert.RegionValue.region0_value (V3 m ρ) c).trans ?_
  show layerT (F := Ideal) (W3 m ρ c (Proc.devRef .tc main_arg0)) (W3 m ρ c (Proc.devRef .tc main_v29)) (W3 m ρ c (Proc.devRef .tc main_v45))
    (W3 m ρ c (Proc.devRef .tc main_v61)) (W3 m ρ c (Proc.devRef .tc main_arg2)) (W3 m ρ c (Proc.devRef .tc main_arg3)) (W3 m ρ c (Proc.devRef .tc main_arg4)) = _
  rw [(W3_hops m ρ c).1, (W3_hops m ρ c).2.1, (W3_hops m ρ c).2.2,
    W3_keep m ρ c main_arg0 (by decide) (by decide) (by decide), W3_keep m ρ c main_arg2 (by decide) (by decide) (by decide),
    W3_keep m ρ c main_arg3 (by decide) (by decide) (by decide), W3_keep m ρ c main_arg4 (by decide) (by decide) (by decide)]
  rfl

/-- A buffer that is no array of region 0 and that the first three stretches do not write holds the launch memory after region 0. -/
theorem W4_keep (r : Ref sig .tc) (hr : ∀ w, Pipeline.arrRef spec0 w ≠ r) (h0 : r ∉ written0) (h1 : r ∉ written0_1) (h2 : r ∉ written0_2) :
    W4 m ρ c (Proc.devRef .tc r) = m ((c : Thread nD τ).loc r) :=
  (W4_of_ne m ρ c r hr).trans (W3_keep m ρ c r h0 h1 h2)

/-- The normalizer and the edge targets and sources are still there after region 0. -/
theorem W4_dinv : W4 m ρ c (Proc.devRef .tc main_v13) = dinvOf (F := Ideal) (m ((c : Thread nD τ).loc main_arg1)) :=
  ((W4_of_ne m ρ c main_v13 (by decide)).trans (keep0_2 _ main_v13 (by decide))).trans (W2_dinv m ρ c)
theorem W4_row : W4 m ρ c (Proc.devRef .tc main_v1) = rowOf (F := Ideal) (m ((c : Thread nD τ).loc main_arg1)) :=
  ((W4_of_ne m ρ c main_v1 (by decide)).trans (keep0_2 _ main_v1 (by decide))).trans (W2_row m ρ c)
theorem W4_col : W4 m ρ c (Proc.devRef .tc main_v3) = colOf (F := Ideal) (m ((c : Thread nD τ).loc main_arg1)) :=
  ((W4_of_ne m ρ c main_v3 (by decide)).trans (keep0_2 _ main_v3 (by decide))).trans (W2_col m ρ c)

/-- After the fourth stretch: the three hops of the first layer. -/
theorem W5_hops :
    W5 m ρ c (Proc.devRef .tc main_v78) = hopK (F := Ideal) (m ((c : Thread nD τ).loc main_arg1)) (W4 m ρ c (Proc.devRef .tc main_v62))
    ∧ W5 m ρ c (Proc.devRef .tc main_v94) = hopK (F := Ideal) (m ((c : Thread nD τ).loc main_arg1))
        (hopK (F := Ideal) (m ((c : Thread nD τ).loc main_arg1)) (W4 m ρ c (Proc.devRef .tc main_v62)))
    ∧ W5 m ρ c (Proc.devRef .tc main_v110) = hopK (F := Ideal) (m ((c : Thread nD τ).loc main_arg1))
        (hopK (F := Ideal) (m ((c : Thread nD τ).loc main_arg1)) (hopK (F := Ideal) (m ((c : Thread nD τ).loc main_arg1)) (W4 m ρ c (Proc.devRef .tc main_v62)))) :=
  stretchHops1 (W4 m ρ c) (m ((c : Thread nD τ).loc main_arg1)) (W4_dinv m ρ c) (W4_row m ρ c) (W4_col m ρ c)

/-- A buffer that is no array of region 0 and that the first four stretches do not write holds the launch memory. -/
theorem W5_keep (r : Ref sig .tc) (hr : ∀ w, Pipeline.arrRef spec0 w ≠ r) (h0 : r ∉ written0) (h1 : r ∉ written0_1) (h2 : r ∉ written0_2)
    (h3 : r ∉ written1) : W5 m ρ c (Proc.devRef .tc r) = m ((c : Thread nD τ).loc r) :=
  (keep1 _ r h3).trans (W4_keep m ρ c r hr h0 h1 h2)

/-- The sum of region 1's partial rows is the pooled second layer. -/
theorem W6_pooled :
    Host.reduceAdd (F := Ideal) (W6 m ρ c (Proc.devRef .tc main_v111)) (constant (F := Ideal) S_ .f32 0x00000000#32)
        Facts₀.reducesTo_S10x1x128_S1x128_d0 Facts₀.h_S_
      = poolT (F := Ideal) (convK (F := Ideal) (m ((c : Thread nD τ).loc main_arg1)) (W4 m ρ c (Proc.devRef .tc main_v62))
          (m ((c : Thread nD τ).loc main_arg5)) (m ((c : Thread nD τ).loc main_arg6)) (m ((c : Thread nD τ).loc main_arg7))) := by
  rw [show W6 m ρ c (Proc.devRef .tc main_v111) = (dat1 (V5 m ρ) c).arrAt 7 cfg1.N from W6_arr m ρ c 7]
  refine (Cert.RegionValue.region1_pooled (V5 m ρ) c).trans ?_
  show poolT (F := Ideal) (layerT (F := Ideal) (W5 m ρ c (Proc.devRef .tc main_v62)) (W5 m ρ c (Proc.devRef .tc main_v78)) (W5 m ρ c (Proc.devRef .tc main_v94))
    (W5 m ρ c (Proc.devRef .tc main_v110)) (W5 m ρ c (Proc.devRef .tc main_arg5)) (W5 m ρ c (Proc.devRef .tc main_arg6)) (W5 m ρ c (Proc.devRef .tc main_arg7))) = _
  rw [(W5_hops m ρ c).1, (W5_hops m ρ c).2.1, (W5_hops m ρ c).2.2,
    show W5 m ρ c (Proc.devRef .tc main_v62) = W4 m ρ c (Proc.devRef .tc main_v62) from keep1 _ main_v62 (by decide),
    W5_keep m ρ c main_arg5 (by decide) (by decide) (by decide) (by decide) (by decide),
    W5_keep m ρ c main_arg6 (by decide) (by decide) (by decide) (by decide) (by decide),
    W5_keep m ρ c main_arg7 (by decide) (by decide) (by decide) (by decide) (by decide)]
  rfl

/-- A buffer that is no array of either region and that the first four stretches do not write holds the launch memory after region 1. -/
theorem W6_keep (r : Ref sig .tc) (hr1 : ∀ w, Pipeline.arrRef spec1 w ≠ r) (hr : ∀ w, Pipeline.arrRef spec0 w ≠ r) (h0 : r ∉ written0)
    (h1 : r ∉ written0_1) (h2 : r ∉ written0_2) (h3 : r ∉ written1) : W6 m ρ c (Proc.devRef .tc r) = m ((c : Thread nD τ).loc r) :=
  (W6_of_ne m ρ c r hr1).trans (W5_keep m ρ c r hr h0 h1 h2 h3)

/-! ## The result -/

/-- The kernel program's result array, when @main returns, is the reference's network of the argument arrays. -/
theorem result_eq :
    W7 m ρ c (Proc.devRef .tc main_v115)
      = netR (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (stretchTail (W6 m ρ c)).trans ?_
  rw [W6_pooled m ρ c, W4_layer m ρ c,
    W6_keep m ρ c main_arg8 (by decide) (by decide) (by decide) (by decide) (by decide) (by decide),
    W6_keep m ρ c main_arg9 (by decide) (by decide) (by decide) (by decide) (by decide) (by decide),
    convK_eq_convR, convK_eq_convR]
  rfl

end Cert.KernelValue

end
-- ==== Proof.RefRun.lean ====
/-
  The reference program's run, its result named by the specification.

  The reference is a straight line of 196 host operations.  Run from contents `V`, the line leaves at its result
  buffer the value `Spec.netR` of the ten argument arrays: the composed term of the operations is, operation for
  operation, the one `Spec.netR` unfolds to (the edge rows and columns, the degree normalizer, the edge weight,
  three hops and a layer, the same again, the sum over the nodes and the last product), so once every operation's
  result is read at its own buffer the two sides agree by unfolding the definitions.  No operation writes an
  argument buffer, so the arguments are unchanged.  `run` carries both over every weakly fair execution.
-/
import proofs.«177928_j41618233098577_2_alg».proof.Proof.Spec
import proofs.«177928_j41618233098577_2_alg».proof.Proof.RefOps

noncomputable section

namespace Cert.RefRun

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

set_option maxRecDepth 16384 in
set_option maxHeartbeats 0 in
/-- From any contents `V`, the 196 operations leave `Spec.netR` of the argument arrays at the result buffer:
    each operation's result is its function at its operands' contents, and the composed term is `Spec.netR` with
    its definitions unfolded. -/
theorem res_eq (V : Valuation τ sig (Elt F)) :
    after ops V (Proc.devRef .tc main_v163)
      = Cert.Spec.netR (V (Proc.devRef .tc main_arg0))
      (V (Proc.devRef .tc main_arg1))
      (V (Proc.devRef .tc main_arg2))
      (V (Proc.devRef .tc main_arg3))
      (V (Proc.devRef .tc main_arg4))
      (V (Proc.devRef .tc main_arg5))
      (V (Proc.devRef .tc main_arg6))
      (V (Proc.devRef .tc main_arg7))
      (V (Proc.devRef .tc main_arg8))
      (V (Proc.devRef .tc main_arg9)) := by
  after_results_simp
  rfl

/-! No operation of the line writes an argument buffer. -/

section Args
set_option maxRecDepth 16384
set_option maxHeartbeats 0
theorem arg0_eq (V : Valuation τ sig (Elt F)) :
    after ops V (Proc.devRef .tc main_arg0) = V (Proc.devRef .tc main_arg0) := by
  after_results_simp <;> rfl
theorem arg1_eq (V : Valuation τ sig (Elt F)) :
    after ops V (Proc.devRef .tc main_arg1) = V (Proc.devRef .tc main_arg1) := by
  after_results_simp <;> rfl
theorem arg2_eq (V : Valuation τ sig (Elt F)) :
    after ops V (Proc.devRef .tc main_arg2) = V (Proc.devRef .tc main_arg2) := by
  after_results_simp <;> rfl
theorem arg3_eq (V : Valuation τ sig (Elt F)) :
    after ops V (Proc.devRef .tc main_arg3) = V (Proc.devRef .tc main_arg3) := by
  after_results_simp <;> rfl
theorem arg4_eq (V : Valuation τ sig (Elt F)) :
    after ops V (Proc.devRef .tc main_arg4) = V (Proc.devRef .tc main_arg4) := by
  after_results_simp <;> rfl
theorem arg5_eq (V : Valuation τ sig (Elt F)) :
    after ops V (Proc.devRef .tc main_arg5) = V (Proc.devRef .tc main_arg5) := by
  after_results_simp <;> rfl
theorem arg6_eq (V : Valuation τ sig (Elt F)) :
    after ops V (Proc.devRef .tc main_arg6) = V (Proc.devRef .tc main_arg6) := by
  after_results_simp <;> rfl
theorem arg7_eq (V : Valuation τ sig (Elt F)) :
    after ops V (Proc.devRef .tc main_arg7) = V (Proc.devRef .tc main_arg7) := by
  after_results_simp <;> rfl
theorem arg8_eq (V : Valuation τ sig (Elt F)) :
    after ops V (Proc.devRef .tc main_arg8) = V (Proc.devRef .tc main_arg8) := by
  after_results_simp <;> rfl
theorem arg9_eq (V : Valuation τ sig (Elt F)) :
    after ops V (Proc.devRef .tc main_arg9) = V (Proc.devRef .tc main_arg9) := by
  after_results_simp <;> rfl
end Args

/-- On every device, for any float values, from any memory with zero counters: every weakly fair execution of the
    reference terminates with the result buffer at `Spec.netR` of the launch's argument arrays and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163)
        = Cert.Spec.netR (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v163).trans (res_eq (launchContents m c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.RefRun

end
-- ==== Proof.lean ====
/-
  The certificate of a two-layer graph convolution (three propagation hops per layer, PReLU, a sum over all nodes and a
  final linear map) against its jnp reference, over the extended reals.

  The kernel program computes the degree normalizer and the hops on the host and each layer in a pipelined region
  of ten blocks of 5000 nodes (the second region also sums each block's rows); the reference computes everything on the
  host.  At the ideal instance both end with `netR` of the argument arrays (Proof/Spec.lean): the reference by its own
  run read back (Proof/RefRun.lean), the kernel program by the contents at its segment boundaries (Proof/KernelValue.lean)
  — the regions' blocks are restrictions of whole-array layers (Proof/RegionValue.lean), the ten partial sums regroup
  the sum over all nodes, and the kernel's hop `dinv · Σ dinv[col]·h[col]` is the reference's
  `Σ (dinv[row]·dinv[col])·h[col]` because `dinv` is a non-negative real (Proof/HopLaw.lean).  No finiteness of the
  inputs is used.  The frames of the two kernel programs are the generated ones; the reference's frame is its run with
  the result dropped; the ideal pass rewrote nothing, so `preserves` is trivial.
-/
import proofs.«177928_j41618233098577_2_alg».proof.Defs
import proofs.«177928_j41618233098577_2_alg».proof.Proof.Gen.Kernel
import proofs.«177928_j41618233098577_2_alg».proof.Proof.Gen.Kernel.Frame
import proofs.«177928_j41618233098577_2_alg».proof.Proof.Gen.KernelIdeal
import proofs.«177928_j41618233098577_2_alg».proof.Proof.Gen.KernelIdeal.Frame
import proofs.«177928_j41618233098577_2_alg».proof.Proof.Gen.ReferenceIdeal
import proofs.«177928_j41618233098577_2_alg».proof.Proof.Gen.Pre_finite_inputs
import proofs.«177928_j41618233098577_2_alg».proof.Proof.KernelRun
import proofs.«177928_j41618233098577_2_alg».proof.Proof.KernelValue
import proofs.«177928_j41618233098577_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both idealized programs end with the reference's network of the (agreeing) argument arrays. -/
theorem algebraic : Cert.algebraic_KernelIdeal_ReferenceIdeal := by
  intro m ρ m' ρ' _ hagree
  refine ⟨fun c => Cert.Spec.netR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.GenRun.run_value (F := Ideal) m ρ)
    exact Cert.KernelValue.result_eq m ρ c
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
